-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x10 : Shape := ⟨2, ![500000, 10]⟩
abbrev S2x5000000 : Shape := ⟨2, ![2, 5000000]⟩
abbrev S10x16 : Shape := ⟨2, ![10, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S500000x10 : S_.BroadcastsInDim S500000x10 (![] : Fin 0 → Fin S500000x10.rank)
  reducesTo_S500000x10_S_d0_1 : S500000x10.ReducesTo [0, 1] S_
  h_S_ : 0 < S_.numel
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S8 .f32) (main_arg6 : FVec F S8x1 .f32) (main_arg7 : FVec F S1 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S500000x10 .f32) (main_arg1 : IVec S2x5000000 32) (main_arg2 : FVec F S10x16 .f32) (main_arg3 : FVec F S16 .f32) (main_arg4 : FVec F S16x8 .f32) (main_arg5 : FVec F S8 .f32) (main_arg6 : FVec F S8x1 .f32) (main_arg7 : FVec F S1 .f32) : IVec S_ 1 :=
  let main_v0 : FVec F S500000x10 .f32 := Host.absf main_arg0
  let main_cst : FVec F S_ .f32 := constant S_ .f32 0x7F800000#32
  let main_v1 : FVec F S500000x10 .f32 := broadcastInDim S500000x10 ![] bcast_S_S500000x10 main_cst
  let main_v2 : IVec S500000x10 1 := cmpf .olt main_v0 main_v1
  let main_c : IVec S_ 1 := constantI S_ 1 1#1
  let main_v3 : IVec S_ 1 := (fun x v => Host.reduce IntOp.andi x v reducesTo_S500000x10_S_d0_1 h_S_) main_v2 main_c
  let main_v4 : FVec F S10x16 .f32 := Host.absf main_arg2
  let main_cst_0 : FVec F S_ .f32 := constant S_ .f32 0x7F800000#32
  let main_v5 : FVec F S10x16 .f32 := broadcastInDim S10x16 ![] bcast_S_S10x16 main_cst_0
  let main_v6 : IVec S10x16 1 := cmpf .olt main_v4 main_v5
  let main_c_1 : IVec S_ 1 := constantI S_ 1 1#1
  let main_v7 : IVec S_ 1 := (fun x v => Host.reduce IntOp.andi x v reducesTo_S10x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_arg6 main_arg7 main_v13 main_v16
-- ==== Kernel.lean ====
abbrev S500000x10 : Shape := ⟨2, ![500000, 10]⟩
abbrev S2x5000000 : Shape := ⟨2, ![2, 5000000]⟩
abbrev S10x16 : Shape := ⟨2, ![10, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x5000000 : Shape := ⟨2, ![1, 5000000]⟩
abbrev S5000000 : Shape := ⟨1, ![5000000]⟩
abbrev S_ : Shape := ⟨0, ![]⟩
abbrev S500000 : Shape := ⟨1, ![500000]⟩
abbrev S5000000x1 : Shape := ⟨2, ![5000000, 1]⟩
abbrev S5000000x10 : Shape := ⟨2, ![5000000, 10]⟩
abbrev S500000x1 : Shape := ⟨2, ![500000, 1]⟩
abbrev S1x16 : Shape := ⟨2, ![1, 16]⟩
abbrev S500000x16 : Shape := ⟨2, ![500000, 16]⟩
abbrev S10000x10 : Shape := ⟨2, ![10000, 10]⟩
abbrev S10000x16 : Shape := ⟨2, ![10000, 16]⟩
abbrev S5000000x16 : Shape := ⟨2, ![5000000, 16]⟩
abbrev S1x8 : Shape := ⟨2, ![1, 8]⟩
abbrev S500000x8 : Shape := ⟨2, ![500000, 8]⟩
abbrev S10000x8 : Shape := ⟨2, ![10000, 8]⟩
abbrev S1x1 : Shape := ⟨2, ![1, 1]⟩
abbrev S10000x1 : Shape := ⟨2, ![10000, 1]⟩

abbrev nBuf : Space → Nat
  | .hbm => 88
  | .vmem => 18
  | .smem => 0
  | _ => 0

abbrev bufTy : (tb : Table) → Fin (tcTables nBuf tb) → BufTy
  | .hbm, ⟨0, _⟩ => ⟨S500000x10, .f32⟩
  | .hbm, ⟨1, _⟩ => ⟨S2x5000000, .i32⟩
  | .hbm, ⟨2, _⟩ => ⟨S10x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1, .f32⟩
  | .hbm, ⟨7, _⟩ => ⟨S1, .f32⟩
  | .hbm, ⟨8, _⟩ => ⟨S1x5000000, .i32⟩
  | .hbm, ⟨9, _⟩ => ⟨S5000000, .i32⟩
  | .hbm, ⟨10, _⟩ => ⟨S1x5000000, .i32⟩
  | .hbm, ⟨11, _⟩ => ⟨S5000000, .i32⟩
  | .hbm, ⟨12, _⟩ => ⟨S_, .f32⟩
  | .hbm, ⟨13, _⟩ => ⟨S5000000, .f32⟩
  | .hbm, ⟨14, _⟩ => ⟨S_, .f32⟩
  | .hbm, ⟨15, _⟩ => ⟨S500000, .f32⟩
  | .hbm, ⟨16, _⟩ => ⟨S5000000x1, .i32⟩
  | .hbm, ⟨17, _⟩ => ⟨S500000, .f32⟩
  | .hbm, ⟨18, _⟩ => ⟨S_, .f32⟩
  | .hbm, ⟨19, _⟩ => ⟨S500000, .f32⟩
  | .hbm, ⟨20, _⟩ => ⟨S500000, .f32⟩
  | .hbm, ⟨21, _⟩ => ⟨S500000, .f32⟩
  | .hbm, ⟨22, _⟩ => ⟨S_, .i32⟩
  | .hbm, ⟨23, _⟩ => ⟨S5000000, .i32⟩
  | .hbm, ⟨24, _⟩ => ⟨S5000000, .i1⟩
  | .hbm, ⟨25, _⟩ => ⟨S_, .i32⟩
  | .hbm, ⟨26, _⟩ => ⟨S5000000, .i32⟩
  | .hbm, ⟨27, _⟩ => ⟨S5000000, .i32⟩
  | .hbm, ⟨28, _⟩ => ⟨S5000000, .i32⟩
  | .hbm, ⟨29, _⟩ => ⟨S5000000x1, .i32⟩
  | .hbm, ⟨30, _⟩ => ⟨S5000000, .f32⟩
  | .hbm, ⟨31, _⟩ => ⟨S_, .i32⟩
  | .hbm, ⟨32, _⟩ => ⟨S5000000, .i32⟩
  | .hbm, ⟨33, _⟩ => ⟨S5000000, .i1⟩
  | .hbm, ⟨34, _⟩ => ⟨S_, .i32⟩
  | .hbm, ⟨35, _⟩ => ⟨S5000000, .i32⟩
  | .hbm, ⟨36, _⟩ => ⟨S5000000, .i32⟩
  | .hbm, ⟨37, _⟩ => ⟨S5000000, .i32⟩
  | .hbm, ⟨38, _⟩ => ⟨S5000000x1, .i32⟩
  | .hbm, ⟨39, _⟩ => ⟨S5000000, .f32⟩
  | .hbm, ⟨40, _⟩ => ⟨S5000000, .f32⟩
  | .hbm, ⟨41, _⟩ => ⟨S500000, .f32⟩
  | .hbm, ⟨42, _⟩ => ⟨S_, .i32⟩
  | .hbm, ⟨43, _⟩ => ⟨S5000000, .i32⟩
  | .hbm, ⟨44, _⟩ => ⟨S5000000, .i1⟩
  | .hbm, ⟨45, _⟩ => ⟨S_, .i32⟩
  | .hbm, ⟨46, _⟩ => ⟨S5000000, .i32⟩
  | .hbm, ⟨47, _⟩ => ⟨S5000000, .i32⟩
  | .hbm, ⟨48, _⟩ => ⟨S5000000, .i32⟩
  | .hbm, ⟨49, _⟩ => ⟨S5000000x1, .i32⟩
  | .hbm, ⟨50, _⟩ => ⟨S5000000x10, .f32⟩
  | .hbm, ⟨51, _⟩ => ⟨S5000000x1, .f32⟩
  | .hbm, ⟨52, _⟩ => ⟨S5000000x10, .f32⟩
  | .hbm, ⟨53, _⟩ => ⟨S5000000x10, .f32⟩
  | .hbm, ⟨54, _⟩ => ⟨S_, .f32⟩
  | .hbm, ⟨55, _⟩ => ⟨S500000x10, .f32⟩
  | .hbm, ⟨56, _⟩ => ⟨S5000000x1, .i32⟩
  | .hbm, ⟨57, _⟩ => ⟨S500000x10, .f32⟩
  | .hbm, ⟨58, _⟩ => ⟨S500000x1, .f32⟩
  | .hbm, ⟨59, _⟩ => ⟨S500000x10, .f32⟩
  | .hbm, ⟨60, _⟩ => ⟨S500000x10, .f32⟩
  | .hbm, ⟨61, _⟩ => ⟨S500000x10, .f32⟩
  | .hbm, ⟨62, _⟩ => ⟨S1x16, .f32⟩
  | .hbm, ⟨63, _⟩ => ⟨S500000x16, .f32⟩
  | .hbm, ⟨64, _⟩ => ⟨S_, .i32⟩
  | .hbm, ⟨65, _⟩ => ⟨S5000000, .i32⟩
  | .hbm, ⟨66, _⟩ => ⟨S5000000, .i1⟩
  | .hbm, ⟨67, _⟩ => ⟨S_, .i32⟩
  | .hbm, ⟨68, _⟩ => ⟨S5000000, .i32⟩
  | .hbm, ⟨69, _⟩ => ⟨S5000000, .i32⟩
  | .hbm, ⟨70, _⟩ => ⟨S5000000, .i32⟩
  | .hbm, ⟨71, _⟩ => ⟨S5000000x1, .i32⟩
  | .hbm, ⟨72, _⟩ => ⟨S5000000x16, .f32⟩
  | .hbm, ⟨73, _⟩ => ⟨S5000000x1, .f32⟩
  | .hbm, ⟨74, _⟩ => ⟨S5000000x16, .f32⟩
  | .hbm, ⟨75, _⟩ => ⟨S5000000x16, .f32⟩
  | .hbm, ⟨76, _⟩ => ⟨S_, .f32⟩
  | .hbm, ⟨77, _⟩ => ⟨S500000x16, .f32⟩
  | .hbm, ⟨78, _⟩ => ⟨S5000000x1, .i32⟩
  | .hbm, ⟨79, _⟩ => ⟨S500000x16, .f32⟩
  | .hbm, ⟨80, _⟩ => ⟨S500000x1, .f32⟩
  | .hbm, ⟨81, _⟩ => ⟨S500000x16, .f32⟩
  | .hbm, ⟨82, _⟩ => ⟨S500000x16, .f32⟩
  | .hbm, ⟨83, _⟩ => ⟨S500000x16, .f32⟩
  | .hbm, ⟨84, _⟩ => ⟨S1x8, .f32⟩
  | .hbm, ⟨85, _⟩ => ⟨S500000x8, .f32⟩
  | .hbm, ⟨86, _⟩ => ⟨S1x1, .f32⟩
  | .hbm, ⟨87, _⟩ => ⟨S500000x1, .f32⟩
  | .local _ .vmem, ⟨0, _⟩ => ⟨S10000x10, .f32⟩
  | .local _ .vmem, ⟨1, _⟩ => ⟨S10000x10, .f32⟩
  | .local _ .vmem, ⟨2, _⟩ => ⟨S10x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S16x8, .f32⟩
  | .local _ .vmem, ⟨9, _⟩ => ⟨S1x8, .f32⟩
  | .local _ .vmem, ⟨10, _⟩ => ⟨S10000x8, .f32⟩
  | .local _ .vmem, ⟨11, _⟩ => ⟨S10000x8, .f32⟩
  | .local _ .vmem, ⟨12, _⟩ => ⟨S10000x8, .f32⟩
  | .local _ .vmem, ⟨13, _⟩ => ⟨S10000x8, .f32⟩
  | .local _ .vmem, ⟨14, _⟩ => ⟨S8x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S500000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S5000000 : S_.BroadcastsInDim S5000000 (![] : Fin 0 → Fin S5000000.rank)
  bcast_S_S500000 : S_.BroadcastsInDim S500000 (![] : Fin 0 → Fin S500000.rank)
  bcast_S5000000_S5000000x1_0 : S5000000.BroadcastsInDim S5000000x1 (![0] : Fin 1 → Fin S5000000x1.rank)
  bcast_S5000000x1_S5000000x10_0_1 : S5000000x1.BroadcastsInDim S5000000x10 (![0, 1] : Fin 2 → Fin S5000000x10.rank)
  bcast_S_S500000x10 : S_.BroadcastsInDim S500000x10 (![] : Fin 0 → Fin S500000x10.rank)
  bcast_S500000_S500000x1_0 : S500000.BroadcastsInDim S500000x1 (![0] : Fin 1 → Fin S500000x1.rank)
  bcast_S500000x1_S500000x10_0_1 : S500000x1.BroadcastsInDim S500000x10 (![0, 1] : Fin 2 → Fin S500000x10.rank)
  shapeCasts_S16_S1x16 : S16.ShapeCasts S1x16
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  bitsLt_bf16_f32 : FTy.bits .bf16 < FTy.bits .f32
  inb_S10x16_S10x16_0_0 : ∀ a, (![0, 0] : Fin 2 → Nat) a + S10x16.size a ≤ S10x16.size a
  h_S10x16 : 0 < S10x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S5000000x1_S5000000x16_0_1 : S5000000x1.BroadcastsInDim S5000000x16 (![0, 1] : Fin 2 → Fin S5000000x16.rank)
  bcast_S_S500000x16 : S_.BroadcastsInDim S500000x16 (![] : Fin 0 → Fin S500000x16.rank)
  bcast_S500000x1_S500000x16_0_1 : S500000x1.BroadcastsInDim S500000x16 (![0, 1] : Fin 2 → Fin S500000x16.rank)
  shapeCasts_S8_S1x8 : S8.ShapeCasts S1x8
  shapeCasts_S10000x16_S10000x16 : S10000x16.ShapeCasts S10000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  shapeCasts_S1_S1x1 : S1.ShapeCasts S1x1
  shapeCasts_S10000x8_S10000x8 : S10000x8.ShapeCasts S10000x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S500000_S5000000x1_S5000000_n_0_0_1_wf : ScatterDims.WF S500000 S5000000x1 S5000000 [] [0] [0] 1
  gather_S500000_S5000000x1_S5000000_n_0_n_n_0_1_1_wf : GatherDims.WF S500000 S5000000x1 S5000000 [] [0] [] [0] [] 1 ![1]
  gather_S500000x10_S5000000x1_S5000000x10_1_0_n_n_0_1_110_wf : GatherDims.WF S500000x10 S5000000x1 S5000000x10 [1] [0] [] [0] [] 1 ![1, 10]
  scatter_S500000x10_S5000000x1_S5000000x10_1_0_0_1_wf : ScatterDims.WF S500000x10 S5000000x1 S5000000x10 [1] [0] [0] 1
  dot_S10000x10_S10x16_S10000x16_1_0_0_1_n_n_wf : DotDims.WF S10000x10 S10x16 S10000x16 [1] [0] [0] [1] [] []
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  dot_S10000x16_S16x8_S10000x8_1_0_0_1_n_n_wf : DotDims.WF S10000x16 S16x8 S10000x8 [1] [0] [0] [1] [] []
  dot_S10000x8_S8x1_S10000x1_1_0_0_1_n_n_wf : DotDims.WF S10000x8 S8x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S500000x10.size a
  hwx0_0 : ∀ i : grid0.Coords, EltTy.bits .f32 = 32 ∨ (Rect.block (s := S500000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16.size a ≤ S10x16.size a
  hwx0_1 : ∀ i : grid0.Coords, EltTy.bits .f32 = 32 ∨ (Rect.block (s := S10x16) S10x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S500000x16.size a
  hwx0_3 : ∀ i : grid0.Coords, EltTy.bits .f32 = 32 ∨ (Rect.block (s := S500000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x8.size a ≤ S16x8.size a
  hwx1_1 : ∀ i : grid1.Coords, EltTy.bits .f32 = 32 ∨ (Rect.block (s := S16x8) S16x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S500000x8.size a
  hwx1_3 : ∀ i : grid1.Coords, EltTy.bits .f32 = 32 ∨ (Rect.block (s := S500000x8) S10000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S500000x8.size a
  hwx2_0 : ∀ i : grid2.Coords, EltTy.bits .f32 = 32 ∨ (Rect.block (s := S500000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x1.size a ≤ S8x1.size a
  hwx2_1 : ∀ i : grid2.Coords, EltTy.bits .f32 = 32 ∨ (Rect.block (s := S8x1) S8x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S500000x1.size a
  hwx2_3 : ∀ i : grid2.Coords, EltTy.bits .f32 = 32 ∨ (Rect.block (s := S500000x1) S10000x1.size (cc2_transform_3 i) (hinb2_3 i)).WholeWords (EltTy.packing .f32)

variable [Facts₀]

def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def gather_S500000_S5000000x1_S5000000_n_0_n_n_0_1_1 : GatherDims S500000 S5000000x1 S5000000 where
  offsetDims := []
  collapsedSliceDims := [0]
  operandBatchingDims := []
  startIndicesBatchingDims := []
  startIndexMap := [0]
  indexVectorDim := 1
  sliceSizes := ![1]
  wf := gather_S500000_S5000000x1_S5000000_n_0_n_n_0_1_1_wf
def gather_S500000x10_S5000000x1_S5000000x10_1_0_n_n_0_1_110 : GatherDims S500000x10 S5000000x1 S5000000x10 where
  offsetDims := [1]
  collapsedSliceDims := [0]
  operandBatchingDims := []
  startIndicesBatchingDims := []
  startIndexMap := [0]
  indexVectorDim := 1
  sliceSizes := ![1, 10]
  wf := gather_S500000x10_S5000000x1_S5000000x10_1_0_n_n_0_1_110_wf
def scatter_S500000x10_S5000000x1_S5000000x10_1_0_0_1 : ScatterDims S500000x10 S5000000x1 S5000000x10 where
  updateWindowDims := [1]
  insertedWindowDims := [0]
  scatterDimsToOperandDims := [0]
  indexVectorDim := 1
  wf := scatter_S500000x10_S5000000x1_S5000000x10_1_0_0_1_wf
def dot_S10000x10_S10x16_S10000x16_1_0_0_1_n_n : DotDims S10000x10 S10x16 S10000x16 where
  lhsContracting := [1]
  rhsContracting := [0]
  lhsNonContracting := [0]
  rhsNonContracting := [1]
  lhsBatch := []
  rhsBatch := []
  wf := dot_S10000x10_S10x16_S10000x16_1_0_0_1_n_n_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x8_S8x1_S10000x1_1_0_0_1_n_n : DotDims S10000x8 S8x1 S10000x1 where
  lhsContracting := [1]
  rhsContracting := [0]
  lhsNonContracting := [0]
  rhsNonContracting := [1]
  lhsBatch := []
  rhsBatch := []
  wf := dot_S10000x8_S8x1_S10000x1_1_0_0_1_n_n_wf

abbrev win0_0 : Pipeline.Window sig grid0 :=
  Pipeline.Window.ofSpec (Memref.whole main_v43) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v62) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S8x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S500000x10 : Shape := ⟨2, ![500000, 10]⟩
abbrev S2x5000000 : Shape := ⟨2, ![2, 5000000]⟩
abbrev S10x16 : Shape := ⟨2, ![10, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x5000000 : Shape := ⟨2, ![1, 5000000]⟩
abbrev S5000000 : Shape := ⟨1, ![5000000]⟩
abbrev S500000x16 : Shape := ⟨2, ![500000, 16]⟩
abbrev S_ : Shape := ⟨0, ![]⟩
abbrev S500000 : Shape := ⟨1, ![500000]⟩
abbrev S5000000x1 : Shape := ⟨2, ![5000000, 1]⟩
abbrev S5000000x16 : Shape := ⟨2, ![5000000, 16]⟩
abbrev S500000x1 : Shape := ⟨2, ![500000, 1]⟩
abbrev S1x16 : Shape := ⟨2, ![1, 16]⟩
abbrev S500000x8 : Shape := ⟨2, ![500000, 8]⟩
abbrev S5000000x8 : Shape := ⟨2, ![5000000, 8]⟩
abbrev S1x8 : Shape := ⟨2, ![1, 8]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S500000x10, .f32⟩
  | 1 => ⟨S2x5000000, .i32⟩
  | 2 => ⟨S10x16, .f32⟩
  | 3 => ⟨S16, .f32⟩
  | 4 => ⟨S16x8, .f32⟩
  | 5 => ⟨S8, .f32⟩
  | 6 => ⟨S8x1, .f32⟩
  | 7 => ⟨S1, .f32⟩
  | 8 => ⟨S1x5000000, .i32⟩
  | 9 => ⟨S5000000, .i32⟩
  | 10 => ⟨S1x5000000, .i32⟩
  | 11 => ⟨S5000000, .i32⟩
  | 12 => ⟨S500000x16, .f32⟩
  | 13 => ⟨S_, .f32⟩
  | 14 => ⟨S5000000, .f32⟩
  | 15 => ⟨S_, .f32⟩
  | 16 => ⟨S500000, .f32⟩
  | 17 => ⟨S5000000x1, .i32⟩
  | 18 => ⟨S500000, .f32⟩
  | 19 => ⟨S_, .f32⟩
  | 20 => ⟨S500000, .f32⟩
  | 21 => ⟨S500000, .f32⟩
  | 22 => ⟨S500000, .f32⟩
  | 23 => ⟨S_, .i32⟩
  | 24 => ⟨S5000000, .i32⟩
  | 25 => ⟨S5000000, .i1⟩
  | 26 => ⟨S_, .i32⟩
  | 27 => ⟨S5000000, .i32⟩
  | 28 => ⟨S5000000, .i32⟩
  | 29 => ⟨S5000000, .i32⟩
  | 30 => ⟨S5000000x1, .i32⟩
  | 31 => ⟨S5000000, .f32⟩
  | 32 => ⟨S_, .i32⟩
  | 33 => ⟨S5000000, .i32⟩
  | 34 => ⟨S5000000, .i1⟩
  | 35 => ⟨S_, .i32⟩
  | 36 => ⟨S5000000, .i32⟩
  | 37 => ⟨S5000000, .i32⟩
  | 38 => ⟨S5000000, .i32⟩
  | 39 => ⟨S5000000x1, .i32⟩
  | 40 => ⟨S5000000, .f32⟩
  | 41 => ⟨S5000000, .f32⟩
  | 42 => ⟨S_, .i32⟩
  | 43 => ⟨S5000000, .i32⟩
  | 44 => ⟨S5000000, .i1⟩
  | 45 => ⟨S_, .i32⟩
  | 46 => ⟨S5000000, .i32⟩
  | 47 => ⟨S5000000, .i32⟩
  | 48 => ⟨S5000000, .i32⟩
  | 49 => ⟨S5000000x1, .i32⟩
  | 50 => ⟨S5000000x16, .f32⟩
  | 51 => ⟨S5000000x1, .f32⟩
  | 52 => ⟨S5000000x16, .f32⟩
  | 53 => ⟨S5000000x16, .f32⟩
  | 54 => ⟨S_, .f32⟩
  | 55 => ⟨S500000x16, .f32⟩
  | 56 => ⟨S5000000x1, .i32⟩
  | 57 => ⟨S500000x16, .f32⟩
  | 58 => ⟨S500000, .f32⟩
  | 59 => ⟨S500000x1, .f32⟩
  | 60 => ⟨S500000x16, .f32⟩
  | 61 => ⟨S500000x16, .f32⟩
  | 62 => ⟨S500000x16, .f32⟩
  | 63 => ⟨S1x16, .f32⟩
  | 64 => ⟨S500000x16, .f32⟩
  | 65 => ⟨S500000x16, .f32⟩
  | 66 => ⟨S_, .f32⟩
  | 67 => ⟨S500000x16, .f32⟩
  | 68 => ⟨S500000x16, .f32⟩
  | 69 => ⟨S500000x8, .f32⟩
  | 70 => ⟨S_, .f32⟩
  | 71 => ⟨S5000000, .f32⟩
  | 72 => ⟨S_, .f32⟩
  | 73 => ⟨S500000, .f32⟩
  | 74 => ⟨S5000000x1, .i32⟩
  | 75 => ⟨S500000, .f32⟩
  | 76 => ⟨S_, .f32⟩
  | 77 => ⟨S500000, .f32⟩
  | 78 => ⟨S500000, .f32⟩
  | 79 => ⟨S500000, .f32⟩
  | 80 => ⟨S_, .i32⟩
  | 81 => ⟨S5000000, .i32⟩
  | 82 => ⟨S5000000, .i1⟩
  | 83 => ⟨S_, .i32⟩
  | 84 => ⟨S5000000, .i32⟩
  | 85 => ⟨S5000000, .i32⟩
  | 86 => ⟨S5000000, .i32⟩
  | 87 => ⟨S5000000x1, .i32⟩
  | 88 => ⟨S5000000, .f32⟩
  | 89 => ⟨S_, .i32⟩
  | 90 => ⟨S5000000, .i32⟩
  | 91 => ⟨S5000000, .i1⟩
  | 92 => ⟨S_, .i32⟩
  | 93 => ⟨S5000000, .i32⟩
  | 94 => ⟨S5000000, .i32⟩
  | 95 => ⟨S5000000, .i32⟩
  | 96 => ⟨S5000000x1, .i32⟩
  | 97 => ⟨S5000000, .f32⟩
  | 98 => ⟨S5000000, .f32⟩
  | 99 => ⟨S_, .i32⟩
  | 100 => ⟨S5000000, .i32⟩
  | 101 => ⟨S5000000, .i1⟩
  | 102 => ⟨S_, .i32⟩
  | 103 => ⟨S5000000, .i32⟩
  | 104 => ⟨S5000000, .i32⟩
  | 105 => ⟨S5000000, .i32⟩
  | 106 => ⟨S5000000x1, .i32⟩
  | 107 => ⟨S5000000x8, .f32⟩
  | 108 => ⟨S5000000x1, .f32⟩
  | 109 => ⟨S5000000x8, .f32⟩
  | 110 => ⟨S5000000x8, .f32⟩
  | 111 => ⟨S_, .f32⟩
  | 112 => ⟨S500000x8, .f32⟩
  | 113 => ⟨S5000000x1, .i32⟩
  | 114 => ⟨S500000x8, .f32⟩
  | 115 => ⟨S500000, .f32⟩
  | 116 => ⟨S500000x1, .f32⟩
  | 117 => ⟨S500000x8, .f32⟩
  | 118 => ⟨S500000x8, .f32⟩
  | 119 => ⟨S500000x8, .f32⟩
  | 120 => ⟨S1x8, .f32⟩
  | 121 => ⟨S500000x8, .f32⟩
  | 122 => ⟨S500000x8, .f32⟩
  | 123 => ⟨S_, .f32⟩
  | 124 => ⟨S500000x8, .f32⟩
  | 125 => ⟨S500000x8, .f32⟩
  | 126 => ⟨S500000x1, .f32⟩
  | 127 => ⟨S1x1, .f32⟩
  | _ => ⟨S500000x10, .f32⟩

abbrev hbmTy0_1 (i : Nat) : BufTy := match i % 128 with
  | 0 => ⟨S500000x1, .f32⟩
  | 1 => ⟨S500000x1, .f32⟩
  | _ => ⟨S500000x10, .f32⟩

abbrev hbmTy (i : Nat) : BufTy := match i / 128 with
  | 0 => hbmTy0_0 i
  | 1 => hbmTy0_1 i
  | _ => ⟨S500000x10, .f32⟩

abbrev bufTy : (tb : Table) → Fin (tcTables nBuf tb) → BufTy
  | .hbm, ⟨i, _⟩ => hbmTy i
  | _, _ => ⟨S500000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S5000000 : S_.BroadcastsInDim S5000000 (![] : Fin 0 → Fin S5000000.rank)
  bcast_S_S500000 : S_.BroadcastsInDim S500000 (![] : Fin 0 → Fin S500000.rank)
  bcast_S5000000_S5000000x1_0 : S5000000.BroadcastsInDim S5000000x1 (![0] : Fin 1 → Fin S5000000x1.rank)
  bcast_S5000000x1_S5000000x16_0_1 : S5000000x1.BroadcastsInDim S5000000x16 (![0, 1] : Fin 2 → Fin S5000000x16.rank)
  bcast_S_S500000x16 : S_.BroadcastsInDim S500000x16 (![] : Fin 0 → Fin S500000x16.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S5000000x1_S5000000x8_0_1 : S5000000x1.BroadcastsInDim S5000000x8 (![0, 1] : Fin 2 → Fin S5000000x8.rank)
  bcast_S_S500000x8 : S_.BroadcastsInDim S500000x8 (![] : Fin 0 → Fin S500000x8.rank)
  bcast_S500000x1_S500000x8_0_1 : S500000x1.BroadcastsInDim S500000x8 (![0, 1] : Fin 2 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  dot_S500000x10_S10x16_S500000x16_1_0_0_1_n_n_wf : DotDims.WF S500000x10 S10x16 S500000x16 [1] [0] [0] [1] [] []
  scatter_S500000_S5000000x1_S5000000_n_0_0_1_wf : ScatterDims.WF S500000 S5000000x1 S5000000 [] [0] [0] 1
  gather_S500000_S5000000x1_S5000000_n_0_n_n_0_1_1_wf : GatherDims.WF S500000 S5000000x1 S5000000 [] [0] [] [0] [] 1 ![1]
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  dot_S500000x16_S16x8_S500000x8_1_0_0_1_n_n_wf : DotDims.WF S500000x16 S16x8 S500000x8 [1] [0] [0] [1] [] []
  gather_S500000x8_S5000000x1_S5000000x8_1_0_n_n_0_1_18_wf : GatherDims.WF S500000x8 S5000000x1 S5000000x8 [1] [0] [] [0] [] 1 ![1, 8]
  scatter_S500000x8_S5000000x1_S5000000x8_1_0_0_1_wf : ScatterDims.WF S500000x8 S5000000x1 S5000000x8 [1] [0] [0] 1
  dot_S500000x8_S8x1_S500000x1_1_0_0_1_n_n_wf : DotDims.WF S500000x8 S8x1 S500000x1 [1] [0] [0] [1] [] []

variable [Facts₀]

def dot_S500000x10_S10x16_S500000x16_1_0_0_1_n_n : DotDims S500000x10 S10x16 S500000x16 where
  lhsContracting := [1]
  rhsContracting := [0]
  lhsNonContracting := [0]
  rhsNonContracting := [1]
  lhsBatch := []
  rhsBatch := []
  wf := dot_S500000x10_S10x16_S500000x16_1_0_0_1_n_n_wf
def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def gather_S500000_S5000000x1_S5000000_n_0_n_n_0_1_1 : GatherDims S500000 S5000000x1 S5000000 where
  offsetDims := []
  collapsedSliceDims := [0]
  operandBatchingDims := []
  startIndicesBatchingDims := []
  startIndexMap := [0]
  indexVectorDim := 1
  sliceSizes := ![1]
  wf := gather_S500000_S5000000x1_S5000000_n_0_n_n_0_1_1_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S500000x16_S16x8_S500000x8_1_0_0_1_n_n : DotDims S500000x16 S16x8 S500000x8 where
  lhsContracting := [1]
  rhsContracting := [0]
  lhsNonContracting := [0]
  rhsNonContracting := [1]
  lhsBatch := []
  rhsBatch := []
  wf := dot_S500000x16_S16x8_S500000x8_1_0_0_1_n_n_wf
def gather_S500000x8_S5000000x1_S5000000x8_1_0_n_n_0_1_18 : GatherDims S500000x8 S5000000x1 S5000000x8 where
  offsetDims := [1]
  collapsedSliceDims := [0]
  operandBatchingDims := []
  startIndicesBatchingDims := []
  startIndexMap := [0]
  indexVectorDim := 1
  sliceSizes := ![1, 8]
  wf := gather_S500000x8_S5000000x1_S5000000x8_1_0_n_n_0_1_18_wf
def scatter_S500000x8_S5000000x1_S5000000x8_1_0_0_1 : ScatterDims S500000x8 S5000000x1 S5000000x8 where
  updateWindowDims := [1]
  insertedWindowDims := [0]
  scatterDimsToOperandDims := [0]
  indexVectorDim := 1
  wf := scatter_S500000x8_S5000000x1_S5000000x8_1_0_0_1_wf
def dot_S500000x8_S8x1_S500000x1_1_0_0_1_n_n : DotDims S500000x8 S8x1 S500000x1 where
  lhsContracting := [1]
  rhsContracting := [0]
  lhsNonContracting := [0]
  rhsNonContracting := [1]
  lhsBatch := []
  rhsBatch := []
  wf := dot_S500000x8_S8x1_S500000x1_1_0_0_1_n_n_wf

class Facts : Prop extends Facts₀ where

variable [Facts]
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.GcnSpec.lean ====
/-
  The two-layer graph convolution, index by index on the extended reals, in its two arrangements.

  A graph on `N` nodes with `R` edges is, for this computation, four things: for each node `p` the set `E p` of edges
  that end at `p`, for each edge `r` its source node `s r`, an edge weight `n r` and a self-loop weight `t p`. The
  aggregation of a node-feature array `y : [N, C]` is
      (agg y)[p, q] = (0 + ∑_{r ∈ E p} y[s r, q] · n r) + y[p, q] · t p.
  One layer multiplies by a weight matrix, adds a bias row and clips at zero; it may aggregate BEFORE the matrix
  product (`aggThenDot`) or AFTER it (`dotThenAgg`). With real weights and real features the two agree, because the
  aggregation mixes rows and the matrix product mixes columns (`Cert.Lib.AggLinear.agg_dot`); a layer's output is
  again real, so the agreement passes through both layers and the final linear head.
-/
import proofs.«155499_j19774029431469_1_alg».proof.Proof.LibAggLinear
import proofs.«155499_j19774029431469_1_alg».proof.Proof.LibPlainDot

noncomputable section

namespace Cert.Gcn

open Idealize.ShloMosaic Idealize.ShloMosaic.ValueIdx Cert.Lib.AggLinear Cert.Lib.PlainDot

/-- What the aggregation reads of a graph: the edges ending at each node, each edge's source, an edge weight and a
    self-loop weight. -/
structure Graph (N R : ℕ) where
  E : Fin N → Finset (Fin R)
  s : Fin R → Fin N
  n : Fin R → EReal
  t : Fin N → EReal

/-- Every weight of the graph is a real number. -/
def Graph.Real {N R : ℕ} (g : Graph N R) : Prop := (∀ r, IsReal (g.n r)) ∧ ∀ p, IsReal (g.t p)

/-- An `[a, b]` array of extended reals, and an `[a]` vector. -/
abbrev Arr (a b : ℕ) := (⟨2, ![a, b]⟩ : Shape).Idx → EReal
abbrev Vc (a : ℕ) := (⟨1, ![a]⟩ : Shape).Idx → EReal

/-- The normalised neighbourhood sum with a self loop. -/
def agg {N R C : ℕ} (g : Graph N R) (y : Arr N C) : Arr N C :=
  fun j => ((0 : EReal) + ∑ r ∈ g.E (j 0), y (ix2 (g.s r) (j 1)) * g.n r) + y (ix2 (j 0) (j 1)) * g.t (j 0)

/-- One layer, aggregating first: `relu ((agg y) · W + b)`. -/
def aggThenDot {N R C D : ℕ} (g : Graph N R) (y : Arr N C) (W : Arr C D) (b : Vc D) : Arr N D :=
  fun j => max (rowsByCols (agg g y) W j + b (ix1 (j 1))) 0

/-- One layer, multiplying first: `relu (agg (y · W) + b)`. -/
def dotThenAgg {N R C D : ℕ} (g : Graph N R) (y : Arr N C) (W : Arr C D) (b : Vc D) : Arr N D :=
  fun j => max (agg g (rowsByCols y W) j + b (ix1 (j 1))) 0

/-- The linear head: `h · W + b`. -/
def head {N D K : ℕ} (h : Arr N D) (W : Arr D K) (b : Vc K) : Arr N K :=
  fun j => rowsByCols h W j + b (ix1 (j 1))

/-- The whole network with each layer aggregating first … -/
def netAggFirst {N R : ℕ} (g : Graph N R) (x : Arr N 10) (W1 : Arr 10 16) (b1 : Vc 16) (W2 : Arr 16 8) (b2 : Vc 8)
    (Wd : Arr 8 1) (bd : Vc 1) : Arr N 1 :=
  head (aggThenDot g (aggThenDot g x W1 b1) W2 b2) Wd bd

/-- … and with each layer multiplying first. -/
def netDotFirst {N R : ℕ} (g : Graph N R) (x : Arr N 10) (W1 : Arr 10 16) (b1 : Vc 16) (W2 : Arr 16 8) (b2 : Vc 8)
    (Wd : Arr 8 1) (bd : Vc 1) : Arr N 1 :=
  head (dotThenAgg g (dotThenAgg g x W1 b1) W2 b2) Wd bd

theorem rowsByCols_real {M K N : ℕ} (l : Arr M K) (r : Arr K N) (hl : ∀ j, IsReal (l j)) (hr : ∀ j, IsReal (r j))
    (j : (⟨2, ![M, N]⟩ : Shape).Idx) : IsReal (rowsByCols l r j) :=
  IsReal.sum _ _ fun _ _ => (hl _).mul (hr _)

theorem agg_real {N R C : ℕ} (g : Graph N R) (hg : g.Real) (y : Arr N C) (hy : ∀ j, IsReal (y j))
    (j : (⟨2, ![N, C]⟩ : Shape).Idx) : IsReal (agg g y j) :=
  (isReal_zero.add (IsReal.sum _ _ fun r _ => (hy _).mul (hg.1 r))).add ((hy _).mul (hg.2 _))

/-- With real weights and features, aggregation commutes with the matrix product on the right. -/
theorem agg_rowsByCols {N R C D : ℕ} (g : Graph N R) (hg : g.Real) (y : Arr N C) (W : Arr C D)
    (hy : ∀ j, IsReal (y j)) (hW : ∀ j, IsReal (W j)) : rowsByCols (agg g y) W = agg g (rowsByCols y W) := by
  funext j
  exact agg_dot (g.E (j 0)) (fun r k => y (ix2 (g.s r) k)) g.n (fun k => y (ix2 (j 0) k)) (g.t (j 0))
    (fun k => W (ix2 k (j 1))) (fun _ _ => hy _) hg.1 (fun _ => hy _) (hg.2 _) (fun _ => hW _)

/-- The two arrangements of one layer agree on real data. -/
theorem layer_eq {N R C D : ℕ} (g : Graph N R) (hg : g.Real) (y : Arr N C) (W : Arr C D) (b : Vc D)
    (hy : ∀ j, IsReal (y j)) (hW : ∀ j, IsReal (W j)) : aggThenDot g y W b = dotThenAgg g y W b := by
  funext j
  unfold aggThenDot dotThenAgg
  rw [agg_rowsByCols g hg y W hy hW]

/-- A layer's output on real data is real. -/
theorem aggThenDot_real {N R C D : ℕ} (g : Graph N R) (hg : g.Real) (y : Arr N C) (W : Arr C D) (b : Vc D)
    (hy : ∀ j, IsReal (y j)) (hW : ∀ j, IsReal (W j)) (hb : ∀ j, IsReal (b j))
    (j : (⟨2, ![N, D]⟩ : Shape).Idx) : IsReal (aggThenDot g y W b j) :=
  ((rowsByCols_real _ _ (agg_real g hg y hy) hW j).add (hb _)).max isReal_zero

/-- The two arrangements of the network agree on real inputs. -/
theorem net_eq {N R : ℕ} (g : Graph N R) (hg : g.Real) (x : Arr N 10) (W1 : Arr 10 16) (b1 : Vc 16) (W2 : Arr 16 8)
    (b2 : Vc 8) (Wd : Arr 8 1) (bd : Vc 1) (hx : ∀ j, IsReal (x j)) (hW1 : ∀ j, IsReal (W1 j)) (hb1 : ∀ j, IsReal (b1 j))
    (hW2 : ∀ j, IsReal (W2 j)) : netAggFirst g x W1 b1 W2 b2 Wd bd = netDotFirst g x W1 b1 W2 b2 Wd bd := by
  unfold netAggFirst netDotFirst
  rw [layer_eq g hg _ W2 b2 (aggThenDot_real g hg x W1 b1 hx hW1 hb1) hW2, layer_eq g hg x W1 b1 hx hW1]

end Cert.Gcn

end
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.LibColumnTake.lean ====
/-
  Taking entries of a vector at a column of start indices, read at an index.

  `x[idx]` for a flat array `x : [N]` and an index vector `idx : [R]` lowers to a gather whose start indices are the
  column `[R, 1]`: the one operand axis is collapsed, there is no offset axis, and a slice is one entry. The result at
  `r` is `x` at the start index `idx[r, 0]` read as a signed integer and clamped into `[0, N − 1]` — the same row
  selection as a gather of whole rows of an `[N, C]` table by the same column. With it, the cast of a column
  `[a, 1]` back to the vector `[a]` read at an index.
-/
import Idealize.ShloMosaic.Lib.Pipeline.Value
import Idealize.ShloMosaic.Lib.ValueIdx
import proofs.«155499_j19774029431469_1_alg».proof.Proof.LibRowGather

noncomputable section

namespace Cert.Lib.ColumnTake

open Idealize.ShloMosaic Idealize.ShloMosaic.ValueIdx Cert.Lib.RowGather

variable {α : Type}

/-- The dimension numbers of taking entries at a column of start indices: no offset axis, the operand's one axis
    collapsed and addressed by the start index, the index vector along axis 1 of the start indices, a slice one entry. -/
abbrev colDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the operand at the entry the start index `idx[r, 0]` selects. -/
theorem gather_column_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (colDims N R wf) x idx (ix1 r) = x (ix1 (rowOf N hN (idx (ix2 r 0)))) := by
  unfold Host.gather
  congr 1
  funext a
  obtain rfl : a = 0 := Subsingleton.elim _ _
  refine Fin.ext ?_
  show (colDims N R wf).start (ix1 r) idx 0 + (colDims N R wf).batchCoord (ix1 r) 0 + (colDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 r) ⟨List.idxOf (0 : Fin 1) (colDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- An `[a, 1]` column cast to the vector `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.Lib.ColumnTake

end
-- ==== Proof.LibRowScatter.lean ====
/-
  Adding rows into a table at a column of start indices. For a table `x : [N, C]`, start indices `idx : [R, 1]` and
  updates `u : [R, C]`, the scatter with one inserted row axis and one window axis of width `C` sends update entry
  `(r, k)` to table entry `(ρ, k)`, where the row `ρ` is the start index `idx[r, 0]` read as a signed integer and NOT
  clamped: when that integer is outside `[0, N − 1]` the update is dropped. The column coordinate passes through.
  So if update `(r, k)` lands on table entry `(p, q)`, then `idx[r, 0]` is `p` and `k = q`.
-/
import Idealize.ShloMosaic.Lib.ValueIdx

noncomputable section

namespace Cert.Lib.RowScatter

open Idealize.ShloMosaic Idealize.ShloMosaic.ValueIdx

/-- The dimension numbers of a row scatter: update axis 1 is the window axis, table axis 0 is inserted and is the
    axis the start index addresses, the index vector lies along axis 1 of the start indices. -/
abbrev rowScat (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window starts, on the row axis, at the start index of the update's row, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) :
    (rowScat N R C wf).start (ix2 r k) idx (0 : Fin 2) = (idx (ix2 r 0)).toInt := by
  unfold ScatterDims.start
  rw [dif_pos (show (0 : Fin 2) ∈ (rowScat N R C wf).scatterDimsToOperandDims from List.mem_singleton.mpr rfl)]
  have hsi : (rowScat N R C wf).siIdx (ix2 r k) ⟨List.idxOf (0 : Fin 2) (rowScat N R C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis the window starts at `0`. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N R C wf).start j idx (1 : Fin 2) = 0 := by
  unfold ScatterDims.start
  rw [dif_neg (fun h => absurd (List.mem_singleton.mp h) (show ¬((1 : Fin 2) = 0) by decide))]

/-- The window coordinate is `0` on the (inserted) row axis … -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowScat N R C wf).window j (0 : Fin 2) = 0 := by
  unfold ScatterDims.window
  rw [dif_neg (show ¬((0 : Fin 2) ∈ (rowScat N R C wf).sKept) from fun h => by have := (List.mem_filter.mp h).2; simp at this)]

/-- … and the update's column on the column axis. -/
theorem window_col {N R C : Nat} (wf : ScatterDims.WF ⟨2, ![N, C]⟩ ⟨2, ![R, 1]⟩ ⟨2, ![R, C]⟩ [1] [0] [0] 1)
    (r : Fin R) (k : Fin C) : (rowScat N R C wf).window (ix2 r k) (1 : Fin 2) = k.val := by
  unfold ScatterDims.window
  rw [dif_pos (show (1 : Fin 2) ∈ (rowScat N R C wf).sKept from List.mem_filter.mpr ⟨List.mem_finRange _, by simp⟩)]
  rfl

/-- If update entry `(r, k)` lands on table entry `(p, q)`, its row's start index is `p` and `k = q`. -/
theorem lands {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C)
    (h : (rowScat N R C wf).resultIdx? (ix2 r k) idx = some (ix2 p q)) :
    (idx (ix2 r 0)).toInt = (p.val : Int) ∧ k = q := by
  unfold ScatterDims.resultIdx? at h
  split at h
  · rename_i hb
    have h' := Option.some.inj h
    have e0 : ((rowScat N R C wf).start (ix2 r k) idx (0 : Fin 2) + ((rowScat N R C wf).window (ix2 r k) (0 : Fin 2) : Int)).toNat = p.val :=
      congrArg Fin.val (congrFun h' (0 : Fin 2))
    have e1 : ((rowScat N R C wf).start (ix2 r k) idx (1 : Fin 2) + ((rowScat N R C wf).window (ix2 r k) (1 : Fin 2) : Int)).toNat = q.val :=
      congrArg Fin.val (congrFun h' (1 : Fin 2))
    have b0 := (hb (0 : Fin 2)).1
    rw [start_row, window_row] at e0 b0
    rw [start_col, window_col] at e1
    refine ⟨by omega, Fin.ext (by omega)⟩
  · exact absurd h (by simp)

end Cert.Lib.RowScatter

end
-- ==== Proof.LibRowScatterSum.lean ====
/-
  Adding rows into a table at a column of start indices, read at an index as a sum over rows.

  For a table `z : [N, C]`, start indices `idx : [R, 1]` and updates `u : [R, C]`, the accumulating scatter with one
  inserted row axis and one window axis of width `C` gives, at table entry `(p, q)` on the extended reals,
  `z[p, q] + ∑ r ∈ landing idx p, u[r, q]`, where `landing idx p` is the set of update rows whose start index, read
  as a signed integer, is exactly `p` (an out-of-range start drops its row). The set of rows does not depend on the
  width `C`: scatters of different widths by the same column of start indices add over the same rows.
-/
import Idealize.ShloMosaic.Lib.ValueIdx
import Idealize.ShloMosaic.PureOps.Ideal
import proofs.«155499_j19774029431469_1_alg».proof.Proof.LibRowScatter

noncomputable section

namespace Cert.Lib.RowScatterSum

open Idealize.ShloMosaic Idealize.ShloMosaic.ValueIdx Cert.Lib.RowScatter

/-- The update rows that land on table row `p`: those whose start index, read signed, is `p`. -/
def landing {R w : Nat} (N : Nat) (idx : IVec ⟨2, ![R, 1]⟩ w) (p : Fin N) : Finset (Fin R) :=
  Finset.univ.filter (fun r => (idx (ix2 r 0)).toInt = (p.val : Int))

/-- Update entry `(r, k)` lands on table entry `(p, q)` exactly when row `r`'s start index is `p` and `k = q`. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C) :
    (rowScat N R C wf).resultIdx? (ix2 r k) idx = some (ix2 p q) ↔ ((idx (ix2 r 0)).toInt = (p.val : Int) ∧ k = q) := by
  constructor
  · exact lands wf idx r k p q
  · rintro ⟨h0, rfl⟩
    have hp := p.isLt
    have hk := k.isLt
    have hb : ∀ a : Fin 2, 0 ≤ (rowScat N R C wf).start (ix2 r k) idx a + ((rowScat N R C wf).window (ix2 r k) a : Int)
        ∧ (rowScat N R C wf).start (ix2 r k) idx a + ((rowScat N R C wf).window (ix2 r k) a : Int) < ((⟨2, ![N, C]⟩ : Shape).size a : Int) := by
      refine Fin.forall_fin_two.mpr ⟨?_, ?_⟩
      · rw [start_row, window_row]
        show 0 ≤ (idx (ix2 r 0)).toInt + ((0 : Nat) : Int) ∧ (idx (ix2 r 0)).toInt + ((0 : Nat) : Int) < (N : Int)
        omega
      · rw [start_col, window_col]
        show 0 ≤ (0 : Int) + (k.val : Int) ∧ (0 : Int) + (k.val : Int) < (C : Int)
        omega
    unfold ScatterDims.resultIdx?
    rw [dif_pos hb]
    refine congrArg some (funext fun a => Fin.ext ?_)
    revert a
    refine Fin.forall_fin_two.mpr ⟨?_, ?_⟩
    · show ((rowScat N R C wf).start (ix2 r k) idx (0 : Fin 2) + ((rowScat N R C wf).window (ix2 r k) (0 : Fin 2) : Int)).toNat = p.val
      rw [start_row, window_row]
      omega
    · show ((rowScat N R C wf).start (ix2 r k) idx (1 : Fin 2) + ((rowScat N R C wf).window (ix2 r k) (1 : Fin 2) : Int)).toNat = k.val
      rw [start_col, window_col]
      omega

/-- The accumulating row scatter at `(p, q)`: the table's entry plus the updates' column `q` summed over the rows
    that land on `p`. -/
theorem scatterAdd_rows_apply {N R C w : Nat} {φ : FTy}
    (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScat N R C wf)
    (z : FVec Ideal ⟨2, ![N, C]⟩ φ) (idx : IVec ⟨2, ![R, 1]⟩ w) (u : FVec Ideal ⟨2, ![R, C]⟩ φ) (p : Fin N) (q : Fin C) :
    Host.scatterAdd d z idx u (ix2 p q) = (z (ix2 p q) : EReal) + ∑ r ∈ landing N idx p, (u (ix2 r q) : EReal) := by
  subst hd
  show Ideal.hostScatterAdd (rowScat N R C wf) z idx u (ix2 p q) = _
  unfold Ideal.hostScatterAdd landing
  congr 1
  rw [Finset.sum_filter, sum_idx2, Finset.sum_filter]
  refine Finset.sum_congr rfl fun r _ => ?_
  by_cases h : (idx (ix2 r 0)).toInt = (p.val : Int)
  · rw [if_pos h]
    rw [Finset.sum_eq_single q]
    · rw [if_pos ((lands_iff wf idx r q p q).mpr ⟨h, rfl⟩)]
    · intro k _ hk
      rw [if_neg (fun hl => hk ((lands_iff wf idx r k p q).mp hl).2)]
    · intro hq
      exact absurd (Finset.mem_univ q) hq
  · rw [if_neg h]
    refine Finset.sum_eq_zero fun k _ => ?_
    rw [if_neg (fun hl => h ((lands_iff wf idx r k p q).mp hl).1)]

end Cert.Lib.RowScatterSum

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.GcnOps.lean ====
/-
  The host operations of the graph aggregation, as terms, and what they compute.

  From the edge list `ei : i32[2, R]` the programs take the source words `ei[0, ·]` and the destination words
  `ei[1, ·]`. Gathers address rows by a word WRAPPED once (a negative word has `N` added) and then clamped into
  `[0, N−1]`; scatters address rows by the RAW destination word, dropping an update whose word is not a row. The
  degree of node `p` is one plus the number of edges whose destination word is `p`; `dinv = deg^(−1/2)`; an edge's
  weight is `dinv[src] · dinv[dst]` and a node's self-loop weight `dinv[p]²`.

  `aggOp` is the aggregation of a `[N, C]` array written with those operations, for any width `C`, over the shape
  side conditions it needs (`GW`: the graph's; `AW C`: the width's). `graphOf` is the graph these terms define, and
  `aggOp_eq` says the term is the specification's `agg` of that graph. The degree is a count plus one, so `dinv` is a
  real number everywhere and the graph's weights are real (`graphOf_real`).
-/
import Idealize.ShloMosaic.Lib.Pipeline.Value
import Idealize.ShloMosaic.Lib.ValueIdx
import Idealize.ShloMosaic.PureOps.Ideal.Laws
import proofs.«155499_j19774029431469_1_alg».proof.Proof.LibRowGather
import proofs.«155499_j19774029431469_1_alg».proof.Proof.LibColumnTake
import proofs.«155499_j19774029431469_1_alg».proof.Proof.LibRowScatterSum
import proofs.«155499_j19774029431469_1_alg».proof.Proof.LibBcastChain
import proofs.«155499_j19774029431469_1_alg».proof.Proof.GcnSpec

noncomputable section

namespace Cert.Gcn

open Idealize.ShloMosaic Idealize.ShloMosaic.ValueIdx Cert.Lib.AggLinear Cert.Lib.RowGather Cert.Lib.ColumnTake
open Cert.Lib.RowScatter Cert.Lib.RowScatterSum Cert.Lib.BcastChain

/-- The number of nodes and of edges. -/
abbrev Nn : ℕ := 500000
abbrev Rr : ℕ := 5000000

abbrev S0 : Shape := ⟨0, ![]⟩
abbrev SE : Shape := ⟨2, ![2, Rr]⟩
abbrev S1R : Shape := ⟨2, ![1, Rr]⟩
abbrev SR : Shape := ⟨1, ![Rr]⟩
abbrev SRc : Shape := ⟨2, ![Rr, 1]⟩
abbrev SNv : Shape := ⟨1, ![Nn]⟩
abbrev SNc : Shape := ⟨2, ![Nn, 1]⟩

theorem Nn_pos : 0 < Nn := by norm_num

/-- The shape side conditions of the operations that read the graph. -/
structure GW : Prop where
  sl0 : SE.Slices ![0, 0] S1R
  sl1 : SE.Slices ![1, 0] S1R
  sc : S1R.ShapeCasts SR
  bR : S0.BroadcastsInDim SR (![] : Fin 0 → Fin SR.rank)
  bN : S0.BroadcastsInDim SNv (![] : Fin 0 → Fin SNv.rank)
  bcol : SR.BroadcastsInDim SRc (![0] : Fin 1 → Fin SRc.rank)
  wfS : ScatterDims.WF SNv SRc SR [] [0] [0] 1
  wfG : GatherDims.WF SNv SRc SR [] [0] [] [0] [] 1 ![1]

/-- The shape side conditions of an aggregation of width `C`. -/
structure AW (C : ℕ) : Prop where
  wfG : GatherDims.WF ⟨2, ![Nn, C]⟩ SRc ⟨2, ![Rr, C]⟩ [1] [0] [] [0] [] 1 ![1, C]
  wfS : ScatterDims.WF ⟨2, ![Nn, C]⟩ SRc ⟨2, ![Rr, C]⟩ [1] [0] [0] 1
  bE2 : SRc.BroadcastsInDim ⟨2, ![Rr, C]⟩ (![0, 1] : Fin 2 → Fin (⟨2, ![Rr, C]⟩ : Shape).rank)
  bZ : S0.BroadcastsInDim ⟨2, ![Nn, C]⟩ (![] : Fin 0 → Fin (⟨2, ![Nn, C]⟩ : Shape).rank)
  bN1 : SNv.BroadcastsInDim SNc (![0] : Fin 1 → Fin SNc.rank)
  bN2 : SNc.BroadcastsInDim ⟨2, ![Nn, C]⟩ (![0, 1] : Fin 2 → Fin (⟨2, ![Nn, C]⟩ : Shape).rank)

section Ops
variable (w : GW)

/-- The source words `ei[0, ·]` and the destination words `ei[1, ·]`. -/
def srcw (ei : IVec SE 32) : IVec SR 32 := shapeCast SR (extractStridedSlice S1R ![0, 0] ei w.sl0) w.sc
def dstw (ei : IVec SE 32) : IVec SR 32 := shapeCast SR (extractStridedSlice S1R ![1, 0] ei w.sl1) w.sc

/-- A word wrapped once: a negative word has `N` added. -/
def wrapw (v : IVec SR 32) : IVec SR 32 :=
  select (cmpi .slt v (broadcastInDim SR ![] w.bR (constantI S0 32 0#32)))
    (addi v (broadcastInDim SR ![] w.bR (constantI S0 32 500000#32))) v

/-- A vector of words as a column of start indices. -/
def col (v : IVec SR 32) : IVec SRc 32 := broadcastInDim SRc ![0] w.bcol v

/-- The start-index columns: wrapped sources, wrapped destinations (for gathers), raw destinations (for scatters). -/
def scol (ei : IVec SE 32) : IVec SRc 32 := col w (wrapw w (srcw w ei))
def dcolw (ei : IVec SE 32) : IVec SRc 32 := col w (wrapw w (dstw w ei))
def dcol (ei : IVec SE 32) : IVec SRc 32 := col w (dstw w ei)

/-- The dimension numbers of the degree count: entries added into a vector at a column of start indices. -/
def degScat : ScatterDims SNv SRc SR where
  updateWindowDims := []
  insertedWindowDims := [0]
  scatterDimsToOperandDims := [0]
  indexVectorDim := 1
  wf := w.wfS

/-- `deg^(−1/2)`, with `deg = (0 + number of edges into the node) + 1`. -/
def dinvOp (ei : IVec SE 32) : FVec Ideal SNv .f32 :=
  Host.rsqrt (addf
    (Host.scatterAdd (degScat w) (broadcastInDim SNv ![] w.bN (constant S0 .f32 0x00000000#32)) (dcol w ei)
      (broadcastInDim SR ![] w.bR (constant S0 .f32 0x3F800000#32)))
    (broadcastInDim SNv ![] w.bN (constant S0 .f32 0x3F800000#32)))

/-- The edge weights `dinv[src] · dinv[dst]` and the self-loop weights `dinv²`. -/
def nrmOp (ei : IVec SE 32) : FVec Ideal SR .f32 :=
  mulf (Host.gather (colDims Nn Rr w.wfG) (dinvOp w ei) (scol w ei)) (Host.gather (colDims Nn Rr w.wfG) (dinvOp w ei) (dcolw w ei))
def snOp (ei : IVec SE 32) : FVec Ideal SNv .f32 := mulf (dinvOp w ei) (dinvOp w ei)

/-- The aggregation of a `[N, C]` array, as the programs write it: gather the source rows, scale each by its edge
    weight, add them into the destination rows of a zero table, and add the array scaled by the self-loop weights. -/
def aggOp {C : ℕ} (a : AW C) (ei : IVec SE 32) (y : FVec Ideal ⟨2, ![Nn, C]⟩ .f32) : FVec Ideal ⟨2, ![Nn, C]⟩ .f32 :=
  addf
    (Host.scatterAdd (rowScat Nn Rr C a.wfS) (broadcastInDim ⟨2, ![Nn, C]⟩ ![] a.bZ (constant S0 .f32 0x00000000#32)) (dcol w ei)
      (mulf (Host.gather (rowDims Nn Rr C a.wfG) y (scol w ei))
        (broadcastInDim ⟨2, ![Rr, C]⟩ ![0, 1] a.bE2 (broadcastInDim SRc ![0] w.bcol (nrmOp w ei)))))
    (mulf y (broadcastInDim ⟨2, ![Nn, C]⟩ ![0, 1] a.bN2 (broadcastInDim SNc ![0] a.bN1 (snOp w ei))))

/-- The graph these terms define: an edge ends at `p` when its raw destination word is `p`; its source is its wrapped
    source word clamped to a row. -/
def graphOf (ei : IVec SE 32) : Graph Nn Rr where
  E p := landing Nn (dcol w ei) p
  s r := rowOf Nn Nn_pos (scol w ei (ix2 r 0))
  n r := nrmOp w ei (ix1 r)
  t p := snOp w ei (ix1 p)

end Ops

/-- The pattern of `1.0`. -/
theorem ofBits_one_f32 : Ideal.ofBits .f32 0x3F800000#32 = 1 := by
  simp [Ideal.ofBits, Ideal.ieee]
  rw [← EReal.coe_mul, ← EReal.coe_one]
  norm_num

/-- The inverse square root of a count plus one is a real number. -/
theorem rsqrt_count_real (k : ℕ) : IsReal (Ideal.rsqrt (((0 : EReal) + ((k : ℝ) : EReal)) + 1)) := by
  have e : ((0 : EReal) + ((k : ℝ) : EReal)) + 1 = ((((k : ℝ) + 1 : ℝ)) : EReal) := by
    rw [zero_add, EReal.coe_add, EReal.coe_one]
  rw [e]
  have h : (0 : ℝ) < (k : ℝ) + 1 := by positivity
  show IsReal (if (k : ℝ) + 1 < 0 then ⊥ else if (k : ℝ) + 1 = 0 then ⊤ else (((Real.sqrt ((k : ℝ) + 1))⁻¹ : ℝ) : EReal))
  rw [if_neg (not_lt.mpr h.le), if_neg h.ne']
  exact isReal_coe _

/-- The inverse square root of "a count added into a zero table, plus one" is real, for any accumulating scatter
    whose table reads `0` at the index and whose updates all read `1`. -/
theorem rsqrt_deg_real {s si u : Shape} {wd : ℕ} (d : ScatterDims s si u) (z : FVec Ideal s .f32) (idx : IVec si wd)
    (o : FVec Ideal u .f32) (o' : FVec Ideal s .f32) (i : s.Idx) (hz : (z i : EReal) = 0) (ho : ∀ j, (o j : EReal) = 1)
    (ho' : (o' i : EReal) = 1) : IsReal (Host.rsqrt (addf (Host.scatterAdd d z idx o) o') i) := by
  show IsReal (Ideal.rsqrt (Ideal.hostScatterAdd d z idx o i + o' i))
  unfold Ideal.hostScatterAdd
  rw [hz, ho', Finset.sum_congr rfl (fun j _ => ho j), sum_one_eq]
  exact rsqrt_count_real _

/-- `dinv` is real at every node: the degree is a count plus one. -/
theorem dinvOp_real (w : GW) (ei : IVec SE 32) (i : SNv.Idx) : IsReal (dinvOp w ei i) := by
  unfold dinvOp
  refine rsqrt_deg_real _ _ _ _ _ i ?_ (fun j => ?_) ?_
  · rw [overAll_apply]; exact Ideal.ofBits_zero_f32
  · rw [overAll_apply]; exact ofBits_one_f32
  · rw [overAll_apply]; exact ofBits_one_f32

/-- The graph's weights are real. -/
theorem graphOf_real (w : GW) (ei : IVec SE 32) : (graphOf w ei).Real := by
  refine ⟨fun r => ?_, fun p => ?_⟩
  · show IsReal (nrmOp w ei (ix1 r))
    unfold nrmOp
    rw [mulf_apply, gather_column_apply Nn_pos, gather_column_apply Nn_pos]
    exact (dinvOp_real w ei _).mul (dinvOp_real w ei _)
  · show IsReal (snOp w ei (ix1 p))
    unfold snOp
    rw [mulf_apply]
    exact (dinvOp_real w ei _).mul (dinvOp_real w ei _)

/-- The aggregation term is the specification's aggregation over the graph the terms define. -/
theorem aggOp_eq {C : ℕ} (w : GW) (a : AW C) (ei : IVec SE 32) (y : FVec Ideal ⟨2, ![Nn, C]⟩ .f32) :
    aggOp w a ei y = agg (graphOf w ei) y := by
  funext j
  obtain ⟨p, q, rfl⟩ : ∃ (p : Fin Nn) (q : Fin C), j = ix2 p q := ⟨j 0, j 1, eq_ix2 j⟩
  have h1 : (mulf y (broadcastInDim ⟨2, ![Nn, C]⟩ ![0, 1] a.bN2 (broadcastInDim SNc ![0] a.bN1 (snOp w ei)))) (ix2 p q)
      = (y (ix2 p q) : EReal) * snOp w ei (ix1 p) := by
    rw [mulf_apply, overCols_apply]
  have h2 : ∀ r : Fin Rr, (mulf (Host.gather (rowDims Nn Rr C a.wfG) y (scol w ei))
        (broadcastInDim ⟨2, ![Rr, C]⟩ ![0, 1] a.bE2 (broadcastInDim SRc ![0] w.bcol (nrmOp w ei)))) (ix2 r q)
      = (y (ix2 (rowOf Nn Nn_pos (scol w ei (ix2 r 0))) q) : EReal) * nrmOp w ei (ix1 r) := by
    intro r
    rw [mulf_apply, gather_rows_apply Nn_pos, overCols_apply]
  have h3 : (broadcastInDim ⟨2, ![Nn, C]⟩ ![] a.bZ (constant (F := Ideal) S0 .f32 0x00000000#32)) (ix2 p q) = (0 : EReal) := by
    rw [overAll_apply]; exact Ideal.ofBits_zero_f32
  unfold aggOp
  rw [addf_apply, scatterAdd_rows_apply _ a.wfS rfl, h1, h3, Finset.sum_congr rfl (fun r _ => h2 r)]
  rfl

end Cert.Gcn

end
-- ==== Proof.KernelRegions.lean ====
/-
  What each of the three kernel regions leaves in its output array.

  Each region is one dense layer over row blocks: grid point `t` (of fifty) loads rows `10000·t … 10000·t + 9999` of
  the input array, the whole weight matrix and the whole bias row, and stores, for each of its rows, the row times the
  matrix plus the bias row (clipped at zero in the first two regions). A row of a matrix product depends only on that
  row of the left factor, so block `t` of the result is the block's own product, and the fifty blocks tile the
  `500000` rows: the output array is the dense layer of the WHOLE input array, whatever the region was entered with.
-/
import proofs.«155499_j19774029431469_1_alg».proof.Proof.Gen.KernelIdeal.Frame
import Idealize.ShloMosaic.Lib.Pipeline.Value
import Idealize.ShloMosaic.Lib.ValueIdx
import Idealize.ShloMosaic.PureOps.Ideal.Laws
import proofs.«155499_j19774029431469_1_alg».proof.Proof.LibPlainDot

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.SL.Sem Cert.Lib.PlainDot
open Idealize.ShloMosaic.Pipeline (Dat Cfg Window)

/-- Rows times a matrix plus a bias row: entry `(a, b)` is `∑ₖ A[a,k] · W[k,b] + B[0,b]`. -/
def dense {M K N : ℕ} (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => rowsByCols A W j + B (ix2 (0 : Fin 1) (j 1))

/-- The same clipped at zero. -/
def denseRelu {M K N : ℕ} (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => max (dense A W B j) 0

/-- A dense layer's entry depends on one row of the left factor, one column of the matrix and one bias entry. -/
theorem dense_congr {M M' K N : ℕ} (A' : (⟨2, ![M', K]⟩ : Shape).Idx → EReal) (W' : (⟨2, ![K, N]⟩ : Shape).Idx → EReal)
    (B' : (⟨2, ![1, N]⟩ : Shape).Idx → EReal) (A : (⟨2, ![M, K]⟩ : Shape).Idx → EReal) (W : (⟨2, ![K, N]⟩ : Shape).Idx → EReal)
    (B : (⟨2, ![1, N]⟩ : Shape).Idx → EReal) (j' : (⟨2, ![M', N]⟩ : Shape).Idx) (j : (⟨2, ![M, N]⟩ : Shape).Idx)
    (hl : ∀ k : Fin K, A' (ix2 (j' 0) k) = A (ix2 (j 0) k)) (hr : ∀ k : Fin K, W' (ix2 k (j' 1)) = W (ix2 k (j 1)))
    (hb : B' (ix2 (0 : Fin 1) (j' 1)) = B (ix2 (0 : Fin 1) (j 1))) : dense A' W' B' j' = dense A W B j := by
  unfold dense
  rw [rowsByCols_congr A W A' W' j' j hl hr, hb]

theorem denseRelu_congr {M M' K N : ℕ} (A' : (⟨2, ![M', K]⟩ : Shape).Idx → EReal) (W' : (⟨2, ![K, N]⟩ : Shape).Idx → EReal)
    (B' : (⟨2, ![1, N]⟩ : Shape).Idx → EReal) (A : (⟨2, ![M, K]⟩ : Shape).Idx → EReal) (W : (⟨2, ![K, N]⟩ : Shape).Idx → EReal)
    (B : (⟨2, ![1, N]⟩ : Shape).Idx → EReal) (j' : (⟨2, ![M', N]⟩ : Shape).Idx) (j : (⟨2, ![M, N]⟩ : Shape).Idx)
    (hl : ∀ k : Fin K, A' (ix2 (j' 0) k) = A (ix2 (j 0) k)) (hr : ∀ k : Fin K, W' (ix2 k (j' 1)) = W (ix2 k (j 1)))
    (hb : B' (ix2 (0 : Fin 1) (j' 1)) = B (ix2 (0 : Fin 1) (j 1))) : denseRelu A' W' B' j' = denseRelu A W B j := by
  unfold denseRelu
  rw [dense_congr A' W' B' A W B j' j hl hr hb]

theorem hz2 : (![0, 0] : Fin 2 → Nat) = fun _ => 0 := funext fun a => by fin_cases a <;> rfl

/-! ## Region 0: rows `[500000, 10]` by a `[10, 16]` matrix plus a `[1, 16]` bias row, clipped at zero -/

/-- The body's one stored value is the dense layer of its three loaded blocks. -/
theorem pay0_eq (x0 : Vec Ideal S10000x10 .f32) (x1 : Vec Ideal S10x16 .f32) (x2 : Vec Ideal S1x16 .f32) :
    k0_pay1 (F := Ideal) x0 x1 x2 = denseRelu x0 x1 x2 := by
  funext y
  obtain ⟨p, q, rfl⟩ : ∃ (p : Fin 10000) (q : Fin 16), y = ix2 p q := ⟨y 0, y 1, eq_ix2 y⟩
  have hm := matmul_zero_eq (φ₁ := .bf16) (φ₂ := .bf16) dot_S10000x10_S10x16_S10000x16_1_0_0_1_n_n rfl none x0 x1
  have hb : broadcastTo S10000x16 x2 broadcasts_S1x16_S10000x16 (ix2 p q) = x2 (ix2 (0 : Fin 1) q) :=
    broadcastTo_apply x2 broadcasts_S1x16_S10000x16 (ix2 p q) (ix2 (0 : Fin 1) q) (fun a => by
      match a with
      | ⟨0, _⟩ => show 0 = if (1 : ℕ) = 1 then 0 else p.val; rw [if_pos rfl]
      | ⟨1, _⟩ =>
        show q.val = if (16 : ℕ) = 1 then 0 else q.val
        split
        · have := q.isLt; omega
        · rfl)
  unfold k0_pay1
  simp only [shapeCast_self]
  show max ((FloatOps.matmul dot_S10000x10_S10x16_S10000x16_1_0_0_1_n_n none x0 x1 (constant (F := Ideal) S10000x16 .f32 0x00000000#32)) (ix2 p q)
      + broadcastTo S10000x16 x2 broadcasts_S1x16_S10000x16 (ix2 p q)) (Ideal.ofBits .f32 0x00000000#32) = _
  rw [hm, hb, Ideal.ofBits_zero_f32]
  rfl

/-- The printed index maps over the grid: the row blocks of the input and of the output move together with the grid
    point, the matrix and the bias row stay put. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What grid point `t` writes back is block `t` of the dense layer of the whole arrays as the region finds them. -/
theorem flushed0_eq (c : Dev nD) (t : Fin cfg0.N) :
    (dat0 V c).flushed 3 t = ((cfg0.win 3).blk t).view.read (Elt Ideal)
      (denseRelu (V c main_v43) (V c main_arg2) (V c main_v44)) := by
  show (cfg0.win 3).cut (grid0.coords t) ((dat0 V c).after 3 t) = _
  rw [after0_3]
  unfold out0_3
  rw [View.canon_unit_zero hz2]
  simp only [View.ld_unit_zero (S := S10000x10) hz2, View.ld_unit_zero (S := S10x16) hz2, View.ld_unit_zero (S := S1x16) hz2]
  rw [pay0_eq]
  obtain ⟨e0, e1, e2, e3, e4, e5, e6, e7⟩ := idx_facts0 t
  funext y
  show denseRelu (iblk0 V c 0 t) (iblk0 V c 1 t) (iblk0 V c 2 t) y
    = denseRelu (V c main_v43) (V c main_arg2) (V c main_v44) (((cfg0.win 3).blk t).view.emb y)
  refine denseRelu_congr _ _ _ _ _ _ y _ (fun k => ?_) (fun k => ?_) ?_
  · show V c main_v43 (((cfg0.win 0).blk t).view.emb (ix2 (y 0) k)) = V c main_v43 _
    refine congrArg _ (funext fun a => Fin.ext ?_)
    match a with
    | ⟨0, _⟩ => show win0_0.index t (0 : Fin 2) * 10000 + 1 * (y 0).val = win0_3.index t (0 : Fin 2) * 10000 + 1 * (y 0).val; omega
    | ⟨1, _⟩ => show win0_0.index t (1 : Fin 2) * 10 + 1 * k.val = k.val; omega
  · show V c main_arg2 (((cfg0.win 1).blk t).view.emb (ix2 k (y 1))) = V c main_arg2 _
    refine congrArg _ (funext fun a => Fin.ext ?_)
    match a with
    | ⟨0, _⟩ => show win0_1.index t (0 : Fin 2) * 10 + 1 * k.val = k.val; omega
    | ⟨1, _⟩ => show win0_1.index t (1 : Fin 2) * 16 + 1 * (y 1).val = win0_3.index t (1 : Fin 2) * 16 + 1 * (y 1).val; omega
  · show V c main_v44 (((cfg0.win 2).blk t).view.emb (ix2 (0 : Fin 1) (y 1))) = V c main_v44 _
    refine congrArg _ (funext fun a => Fin.ext ?_)
    match a with
    | ⟨0, _⟩ => show win0_2.index t (0 : Fin 2) * 1 + 1 * 0 = 0; omega
    | ⟨1, _⟩ => show win0_2.index t (1 : Fin 2) * 16 + 1 * (y 1).val = win0_3.index t (1 : Fin 2) * 16 + 1 * (y 1).val; omega

/-- An index of the output array is in point `t`'s block iff each coordinate is in the block's range on its axis. -/
theorem mem_blk0 (t : Fin cfg0.N) (i : S500000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v45).slice (win0_3.rect t)).set ↔ _
  rw [View.set_slice_whole, Rect.mem_set_unit]
  exact Iff.rfl

/-- The fifty row blocks tile the output: row `r` is in the block of point `r / 10000`. -/
theorem cover0 (i : S500000x16.Idx) : ∃ t : Fin cfg0.N, (cfg0.win 3).flush t = true ∧ i ∈ ((cfg0.win 3).blk t).view.set := by
  have hN : cfg0.N = 50 := N_0
  have hi0 : (i 0).val < 500000 := (i 0).isLt
  have hi1 : (i 1).val < 16 := (i 1).isLt
  refine ⟨⟨(i 0).val / 10000, by rw [hN]; omega⟩, flush0_3 _, ?_⟩
  rw [mem_blk0]
  obtain ⟨-, -, -, -, -, -, e6, e7⟩ := idx_facts0 ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e6]; show (i 0).val / 10000 * 10000 ≤ (i 0).val ∧ (i 0).val < (i 0).val / 10000 * 10000 + 10000; omega
  | ⟨1, _⟩ =>
    show win0_3.index _ (1 : Fin 2) * 16 ≤ (i 1).val ∧ (i 1).val < win0_3.index _ (1 : Fin 2) * 16 + 16
    rw [e7]; omega

/-- The output array after the region: the dense layer of the arrays the region was entered with. -/
theorem final0 (c : Dev nD) : (dat0 V c).arrAt 3 cfg0.N
    = denseRelu (V c main_v43) (V c main_arg2) (V c main_v44) :=
  (dat0 V c).arrAt_eq_of_cover 3 _ (fun t _ => flushed0_eq V c t) (cover0)

end

/-! ## Region 1: rows `[500000, 16]` by a `[16, 8]` matrix plus a `[1, 8]` bias row, clipped at zero -/

/-- The body's one stored value is the dense layer of its three loaded blocks. -/
theorem pay1_eq (x0 : Vec Ideal S10000x16 .f32) (x1 : Vec Ideal S16x8 .f32) (x2 : Vec Ideal S1x8 .f32) :
    k1_pay1 (F := Ideal) x0 x1 x2 = denseRelu x0 x1 x2 := by
  funext y
  obtain ⟨p, q, rfl⟩ : ∃ (p : Fin 10000) (q : Fin 8), y = ix2 p q := ⟨y 0, y 1, eq_ix2 y⟩
  have hm := matmul_zero_eq (φ₁ := .bf16) (φ₂ := .bf16) dot_S10000x16_S16x8_S10000x8_1_0_0_1_n_n rfl none x0 x1
  have hb : broadcastTo S10000x8 x2 broadcasts_S1x8_S10000x8 (ix2 p q) = x2 (ix2 (0 : Fin 1) q) :=
    broadcastTo_apply x2 broadcasts_S1x8_S10000x8 (ix2 p q) (ix2 (0 : Fin 1) q) (fun a => by
      match a with
      | ⟨0, _⟩ => show 0 = if (1 : ℕ) = 1 then 0 else p.val; rw [if_pos rfl]
      | ⟨1, _⟩ =>
        show q.val = if (8 : ℕ) = 1 then 0 else q.val
        split
        · have := q.isLt; omega
        · rfl)
  unfold k1_pay1
  simp only [shapeCast_self]
  show max ((FloatOps.matmul dot_S10000x16_S16x8_S10000x8_1_0_0_1_n_n none x0 x1 (constant (F := Ideal) S10000x8 .f32 0x00000000#32)) (ix2 p q)
      + broadcastTo S10000x8 x2 broadcasts_S1x8_S10000x8 (ix2 p q)) (Ideal.ofBits .f32 0x00000000#32) = _
  rw [hm, hb, Ideal.ofBits_zero_f32]
  rfl

/-- The printed index maps over the grid: the row blocks of the input and of the output move together with the grid
    point, the matrix and the bias row stay put. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What grid point `t` writes back is block `t` of the dense layer of the whole arrays as the region finds them. -/
theorem flushed1_eq (c : Dev nD) (t : Fin cfg1.N) :
    (dat1 V c).flushed 3 t = ((cfg1.win 3).blk t).view.read (Elt Ideal)
      (denseRelu (V c main_v62) (V c main_arg4) (V c main_v63)) := by
  show (cfg1.win 3).cut (grid1.coords t) ((dat1 V c).after 3 t) = _
  rw [after1_3]
  unfold out1_3
  rw [View.canon_unit_zero hz2]
  simp only [View.ld_unit_zero (S := S10000x16) hz2, View.ld_unit_zero (S := S16x8) hz2, View.ld_unit_zero (S := S1x8) hz2]
  rw [pay1_eq]
  obtain ⟨e0, e1, e2, e3, e4, e5, e6, e7⟩ := idx_facts1 t
  funext y
  show denseRelu (iblk1 V c 0 t) (iblk1 V c 1 t) (iblk1 V c 2 t) y
    = denseRelu (V c main_v62) (V c main_arg4) (V c main_v63) (((cfg1.win 3).blk t).view.emb y)
  refine denseRelu_congr _ _ _ _ _ _ y _ (fun k => ?_) (fun k => ?_) ?_
  · show V c main_v62 (((cfg1.win 0).blk t).view.emb (ix2 (y 0) k)) = V c main_v62 _
    refine congrArg _ (funext fun a => Fin.ext ?_)
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 16 + 1 * k.val = k.val; omega
  · show V c main_arg4 (((cfg1.win 1).blk t).view.emb (ix2 k (y 1))) = V c main_arg4 _
    refine congrArg _ (funext fun a => Fin.ext ?_)
    match a with
    | ⟨0, _⟩ => show win1_1.index t (0 : Fin 2) * 16 + 1 * k.val = k.val; omega
    | ⟨1, _⟩ => show win1_1.index t (1 : Fin 2) * 8 + 1 * (y 1).val = win1_3.index t (1 : Fin 2) * 8 + 1 * (y 1).val; omega
  · show V c main_v63 (((cfg1.win 2).blk t).view.emb (ix2 (0 : Fin 1) (y 1))) = V c main_v63 _
    refine congrArg _ (funext fun a => Fin.ext ?_)
    match a with
    | ⟨0, _⟩ => show win1_2.index t (0 : Fin 2) * 1 + 1 * 0 = 0; omega
    | ⟨1, _⟩ => show win1_2.index t (1 : Fin 2) * 8 + 1 * (y 1).val = win1_3.index t (1 : Fin 2) * 8 + 1 * (y 1).val; omega

/-- An index of the output array is in point `t`'s block iff each coordinate is in the block's range on its axis. -/
theorem mem_blk1 (t : Fin cfg1.N) (i : S500000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v64).slice (win1_3.rect t)).set ↔ _
  rw [View.set_slice_whole, Rect.mem_set_unit]
  exact Iff.rfl

/-- The fifty row blocks tile the output: row `r` is in the block of point `r / 10000`. -/
theorem cover1 (i : S500000x8.Idx) : ∃ t : Fin cfg1.N, (cfg1.win 3).flush t = true ∧ i ∈ ((cfg1.win 3).blk t).view.set := by
  have hN : cfg1.N = 50 := N_1
  have hi0 : (i 0).val < 500000 := (i 0).isLt
  have hi1 : (i 1).val < 8 := (i 1).isLt
  refine ⟨⟨(i 0).val / 10000, by rw [hN]; omega⟩, flush1_3 _, ?_⟩
  rw [mem_blk1]
  obtain ⟨-, -, -, -, -, -, e6, e7⟩ := idx_facts1 ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e6]; show (i 0).val / 10000 * 10000 ≤ (i 0).val ∧ (i 0).val < (i 0).val / 10000 * 10000 + 10000; omega
  | ⟨1, _⟩ =>
    show win1_3.index _ (1 : Fin 2) * 8 ≤ (i 1).val ∧ (i 1).val < win1_3.index _ (1 : Fin 2) * 8 + 8
    rw [e7]; omega

/-- The output array after the region: the dense layer of the arrays the region was entered with. -/
theorem final1 (c : Dev nD) : (dat1 V c).arrAt 3 cfg1.N
    = denseRelu (V c main_v62) (V c main_arg4) (V c main_v63) :=
  (dat1 V c).arrAt_eq_of_cover 3 _ (fun t _ => flushed1_eq V c t) (cover1)

end

/-! ## Region 2: rows `[500000, 8]` by a `[8, 1]` matrix plus a `[1, 1]` bias row -/

/-- The body's one stored value is the dense layer of its three loaded blocks. -/
theorem pay2_eq (x0 : Vec Ideal S10000x8 .f32) (x1 : Vec Ideal S8x1 .f32) (x2 : Vec Ideal S1x1 .f32) :
    k2_pay1 (F := Ideal) x0 x1 x2 = dense x0 x1 x2 := by
  funext y
  obtain ⟨p, q, rfl⟩ : ∃ (p : Fin 10000) (q : Fin 1), y = ix2 p q := ⟨y 0, y 1, eq_ix2 y⟩
  have hm := matmul_zero_eq (φ₁ := .bf16) (φ₂ := .bf16) dot_S10000x8_S8x1_S10000x1_1_0_0_1_n_n rfl none x0 x1
  have hb : broadcastTo S10000x1 x2 broadcasts_S1x1_S10000x1 (ix2 p q) = x2 (ix2 (0 : Fin 1) q) :=
    broadcastTo_apply x2 broadcasts_S1x1_S10000x1 (ix2 p q) (ix2 (0 : Fin 1) q) (fun a => by
      match a with
      | ⟨0, _⟩ => show 0 = if (1 : ℕ) = 1 then 0 else p.val; rw [if_pos rfl]
      | ⟨1, _⟩ =>
        show q.val = if (1 : ℕ) = 1 then 0 else q.val
        split
        · have := q.isLt; omega
        · rfl)
  unfold k2_pay1
  simp only [shapeCast_self]
  show (FloatOps.matmul dot_S10000x8_S8x1_S10000x1_1_0_0_1_n_n none x0 x1 (constant (F := Ideal) S10000x1 .f32 0x00000000#32)) (ix2 p q)
      + broadcastTo S10000x1 x2 broadcasts_S1x1_S10000x1 (ix2 p q) = _
  rw [hm, hb]
  rfl

/-- The printed index maps over the grid: the row blocks of the input and of the output move together with the grid
    point, the matrix and the bias row stay put. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What grid point `t` writes back is block `t` of the dense layer of the whole arrays as the region finds them. -/
theorem flushed2_eq (c : Dev nD) (t : Fin cfg2.N) :
    (dat2 V c).flushed 3 t = ((cfg2.win 3).blk t).view.read (Elt Ideal)
      (dense (V c main_v64) (V c main_arg6) (V c main_v65)) := by
  show (cfg2.win 3).cut (grid2.coords t) ((dat2 V c).after 3 t) = _
  rw [after2_3]
  unfold out2_3
  rw [View.canon_unit_zero hz2]
  simp only [View.ld_unit_zero (S := S10000x8) hz2, View.ld_unit_zero (S := S8x1) hz2, View.ld_unit_zero (S := S1x1) hz2]
  rw [pay2_eq]
  obtain ⟨e0, e1, e2, e3, e4, e5, e6, e7⟩ := idx_facts2 t
  funext y
  show dense (iblk2 V c 0 t) (iblk2 V c 1 t) (iblk2 V c 2 t) y
    = dense (V c main_v64) (V c main_arg6) (V c main_v65) (((cfg2.win 3).blk t).view.emb y)
  refine dense_congr _ _ _ _ _ _ y _ (fun k => ?_) (fun k => ?_) ?_
  · show V c main_v64 (((cfg2.win 0).blk t).view.emb (ix2 (y 0) k)) = V c main_v64 _
    refine congrArg _ (funext fun a => Fin.ext ?_)
    match a with
    | ⟨0, _⟩ => show win2_0.index t (0 : Fin 2) * 10000 + 1 * (y 0).val = win2_3.index t (0 : Fin 2) * 10000 + 1 * (y 0).val; omega
    | ⟨1, _⟩ => show win2_0.index t (1 : Fin 2) * 8 + 1 * k.val = k.val; omega
  · show V c main_arg6 (((cfg2.win 1).blk t).view.emb (ix2 k (y 1))) = V c main_arg6 _
    refine congrArg _ (funext fun a => Fin.ext ?_)
    match a with
    | ⟨0, _⟩ => show win2_1.index t (0 : Fin 2) * 8 + 1 * k.val = k.val; omega
    | ⟨1, _⟩ => show win2_1.index t (1 : Fin 2) * 1 + 1 * (y 1).val = win2_3.index t (1 : Fin 2) * 1 + 1 * (y 1).val; omega
  · show V c main_v65 (((cfg2.win 2).blk t).view.emb (ix2 (0 : Fin 1) (y 1))) = V c main_v65 _
    refine congrArg _ (funext fun a => Fin.ext ?_)
    match a with
    | ⟨0, _⟩ => show win2_2.index t (0 : Fin 2) * 1 + 1 * 0 = 0; omega
    | ⟨1, _⟩ => show win2_2.index t (1 : Fin 2) * 1 + 1 * (y 1).val = win2_3.index t (1 : Fin 2) * 1 + 1 * (y 1).val; omega

/-- An index of the output array is in point `t`'s block iff each coordinate is in the block's range on its axis. -/
theorem mem_blk2 (t : Fin cfg2.N) (i : S500000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v66).slice (win2_3.rect t)).set ↔ _
  rw [View.set_slice_whole, Rect.mem_set_unit]
  exact Iff.rfl

/-- The fifty row blocks tile the output: row `r` is in the block of point `r / 10000`. -/
theorem cover2 (i : S500000x1.Idx) : ∃ t : Fin cfg2.N, (cfg2.win 3).flush t = true ∧ i ∈ ((cfg2.win 3).blk t).view.set := by
  have hN : cfg2.N = 50 := N_2
  have hi0 : (i 0).val < 500000 := (i 0).isLt
  have hi1 : (i 1).val < 1 := (i 1).isLt
  refine ⟨⟨(i 0).val / 10000, by rw [hN]; omega⟩, flush2_3 _, ?_⟩
  rw [mem_blk2]
  obtain ⟨-, -, -, -, -, -, e6, e7⟩ := idx_facts2 ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e6]; show (i 0).val / 10000 * 10000 ≤ (i 0).val ∧ (i 0).val < (i 0).val / 10000 * 10000 + 10000; omega
  | ⟨1, _⟩ =>
    show win2_3.index _ (1 : Fin 2) * 1 ≤ (i 1).val ∧ (i 1).val < win2_3.index _ (1 : Fin 2) * 1 + 1
    rw [e7]; omega

/-- The output array after the region: the dense layer of the arrays the region was entered with. -/
theorem final2 (c : Dev nD) : (dat2 V c).arrAt 3 cfg2.N
    = dense (V c main_v64) (V c main_arg6) (V c main_v65) :=
  (dat2 V c).arrAt_eq_of_cover 3 _ (fun t _ => flushed2_eq V c t) (cover2)

end

end Cert.KernelIdeal.RegionValue

end
-- ==== Proof.KernelRun.lean ====
/-
  The kernel program's run, read as one function of its arguments.

  @main is a stretch of host operations, a kernel region, a second stretch, a second region, a one-line stretch and a
  third region. The first stretch builds the graph's index columns and weights from the edge list and aggregates the
  node features; region 0 is the first dense layer on the aggregate; the second stretch aggregates region 0's output
  with the same columns and weights; region 1 is the second dense layer; region 2 is the linear head. Walking the
  buffer contents from the launch memory through these six segments gives the result array as
  `netAggFirst` — each layer aggregating first — of the graph the edge list defines and the argument arrays.
-/
import proofs.«155499_j19774029431469_1_alg».proof.Proof.Gen.KernelIdeal.Frame
import proofs.«155499_j19774029431469_1_alg».proof.Proof.KernelRegions
import proofs.«155499_j19774029431469_1_alg».proof.Proof.GcnOps
import Idealize.ShloMosaic.Lib.StableHlo.Run

set_option maxRecDepth 16384

noncomputable section

namespace Cert.KernelIdeal.RunValue

open Cert.KernelIdeal Cert.KernelIdeal.Gen Cert.KernelIdeal.RegionValue Idealize.ShloMosaic Idealize.ShloMosaic.ValueIdx
open Idealize.ShloMosaic.TcCoe Idealize.ShloMosaic.Tactic Idealize.ShloMosaic.StableHlo Cert.Gcn Cert.Lib.PlainDot
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The shape side conditions of the graph operations and of the two aggregations, from the program's stated facts. -/
theorem gw : GW := ⟨slices_S2x5000000_S1x5000000_0_0, slices_S2x5000000_S1x5000000_1_0, shapeCasts_S1x5000000_S5000000,
  bcast_S_S5000000, bcast_S_S500000, bcast_S5000000_S5000000x1_0, scatter_S500000_S5000000x1_S5000000_n_0_0_1_wf,
  gather_S500000_S5000000x1_S5000000_n_0_n_n_0_1_1_wf⟩
theorem aw10 : AW 10 := ⟨gather_S500000x10_S5000000x1_S5000000x10_1_0_n_n_0_1_110_wf, scatter_S500000x10_S5000000x1_S5000000x10_1_0_0_1_wf,
  bcast_S5000000x1_S5000000x10_0_1, bcast_S_S500000x10, bcast_S500000_S500000x1_0, bcast_S500000x1_S500000x10_0_1⟩
theorem aw16 : AW 16 := ⟨gather_S500000x16_S5000000x1_S5000000x16_1_0_n_n_0_1_116_wf, scatter_S500000x16_S5000000x1_S5000000x16_1_0_0_1_wf,
  bcast_S5000000x1_S5000000x16_0_1, bcast_S_S500000x16, bcast_S500000_S500000x1_0, bcast_S500000x1_S500000x16_0_1⟩

variable (m : (ℓ : Loc nD τ sig) → Buf (Elt Ideal) ℓ) (ρ : Dev nD → PrngReg)

/-- The argument arrays as launched. -/
abbrev argX (c : Dev nD) := m ((c : Thread nD τ).loc main_arg0)
abbrev argE (c : Dev nD) := m ((c : Thread nD τ).loc main_arg1)

/-! ## The first stretch of host operations, read at the buffers later stages use -/

theorem W1_v1 (c : Dev nD) : W1 m ρ c (Proc.devRef .tc main_v1) = srcw gw (argE m c) := by
  show StableHlo.after hostOps0 (W0 m ρ c) (Proc.devRef .tc main_v1) = _
  after_results_simp
  rfl
theorem W1_v3 (c : Dev nD) : W1 m ρ c (Proc.devRef .tc main_v3) = dstw gw (argE m c) := by
  show StableHlo.after hostOps0 (W0 m ρ c) (Proc.devRef .tc main_v3) = _
  after_results_simp
  rfl
theorem W1_v25 (c : Dev nD) : W1 m ρ c (Proc.devRef .tc main_v25) = nrmOp gw (argE m c) := by
  show StableHlo.after hostOps0 (W0 m ρ c) (Proc.devRef .tc main_v25) = _
  after_results_simp
  rfl
theorem W1_v26 (c : Dev nD) : W1 m ρ c (Proc.devRef .tc main_v26) = snOp gw (argE m c) := by
  show StableHlo.after hostOps0 (W0 m ρ c) (Proc.devRef .tc main_v26) = _
  after_results_simp
  rfl
theorem W1_v43 (c : Dev nD) : W1 m ρ c (Proc.devRef .tc main_v43) = aggOp gw aw10 (argE m c) (argX m c) := by
  show StableHlo.after hostOps0 (W0 m ρ c) (Proc.devRef .tc main_v43) = _
  after_results_simp
  rfl
theorem W1_v44 (c : Dev nD) : W1 m ρ c (Proc.devRef .tc main_v44) = shapeCast S1x16 (m ((c : Thread nD τ).loc main_arg3)) shapeCasts_S16_S1x16 := by
  show StableHlo.after hostOps0 (W0 m ρ c) (Proc.devRef .tc main_v44) = _
  after_results_simp
  rfl

theorem W1_arg2 (c : Dev nD) : W1 m ρ c (Proc.devRef .tc main_arg2) = m ((c : Thread nD τ).loc main_arg2) := by
  show StableHlo.after hostOps0 (W0 m ρ c) (Proc.devRef .tc main_arg2) = _
  after_results_simp
  try rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp
  try rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp
  try rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp
  try rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp
  try rfl

/-! ## Region 0: the first dense layer on the aggregated features -/

/-- The first hidden layer, as the kernel program computes it. -/
def hidden1 (c : Dev nD) : S500000x16.Idx → EReal :=
  denseRelu (aggOp gw aw10 (argE m c) (argX m c)) (m ((c : Thread nD τ).loc main_arg2))
    (shapeCast S1x16 (m ((c : Thread nD τ).loc main_arg3)) shapeCasts_S16_S1x16)

theorem W2_v45 (c : Dev nD) : W2 m ρ c (Proc.devRef .tc main_v45) = hidden1 m c := by
  refine (W2_arr m ρ c 3).trans ((final0 (V1 m ρ) c).trans ?_)
  show denseRelu (W1 m ρ c (Proc.devRef .tc main_v43)) (W1 m ρ c (Proc.devRef .tc main_arg2)) (W1 m ρ c (Proc.devRef .tc main_v44)) = _
  rw [W1_v43, W1_arg2, W1_v44]
  rfl

/-! ## The second stretch: the same aggregation of region 0's output -/

theorem W3_v62 (c : Dev nD) : W3 m ρ c (Proc.devRef .tc main_v62) = aggOp gw aw16 (argE m c) (hidden1 m c) := by
  show StableHlo.after hostOps1 (W2 m ρ c) (Proc.devRef .tc main_v62) = _
  after_results_simp
  rw [W2_v45, W2_of_ne m ρ c main_v1 (by decide), W2_of_ne m ρ c main_v3 (by decide), W2_of_ne m ρ c main_v25 (by decide),
    W2_of_ne m ρ c main_v26 (by decide), W1_v1, W1_v3, W1_v25, W1_v26]
  rfl
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  rw [W2_of_ne m ρ c main_arg4 (by decide), W1_arg4]
theorem W3_v63 (c : Dev nD) : W3 m ρ c (Proc.devRef .tc main_v63) = shapeCast S1x8 (m ((c : Thread nD τ).loc main_arg5)) shapeCasts_S8_S1x8 := by
  show StableHlo.after hostOps1 (W2 m ρ c) (Proc.devRef .tc main_v63) = _
  after_results_simp
  rw [W2_of_ne m ρ c main_arg5 (by decide), W1_arg5]
  try rfl
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  rw [W2_of_ne m ρ c main_arg6 (by decide), W1_arg6]
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  rw [W2_of_ne m ρ c main_arg7 (by decide), W1_arg7]

/-! ## Region 1: the second dense layer -/

/-- The second hidden layer, as the kernel program computes it. -/
def hidden2 (c : Dev nD) : S500000x8.Idx → EReal :=
  denseRelu (aggOp gw aw16 (argE m c) (hidden1 m c)) (m ((c : Thread nD τ).loc main_arg4))
    (shapeCast S1x8 (m ((c : Thread nD τ).loc main_arg5)) shapeCasts_S8_S1x8)

theorem W4_v64 (c : Dev nD) : W4 m ρ c (Proc.devRef .tc main_v64) = hidden2 m c := by
  refine (W4_arr m ρ c 3).trans ((final1 (V3 m ρ) c).trans ?_)
  show denseRelu (W3 m ρ c (Proc.devRef .tc main_v62)) (W3 m ρ c (Proc.devRef .tc main_arg4)) (W3 m ρ c (Proc.devRef .tc main_v63)) = _
  rw [W3_v62, W3_arg4, W3_v63]
  rfl

/-! ## The last stretch and region 2: the linear head -/

theorem W5_v64 (c : Dev nD) : W5 m ρ c (Proc.devRef .tc main_v64) = hidden2 m c := by
  show StableHlo.after hostOps2 (W4 m ρ c) (Proc.devRef .tc main_v64) = _
  after_results_simp
  rw [W4_v64]
theorem W5_arg6 (c : Dev nD) : W5 m ρ c (Proc.devRef .tc main_arg6) = m ((c : Thread nD τ).loc main_arg6) := by
  show StableHlo.after hostOps2 (W4 m ρ c) (Proc.devRef .tc main_arg6) = _
  after_results_simp
  rw [W4_of_ne m ρ c main_arg6 (by decide), W3_arg6]
theorem W5_v65 (c : Dev nD) : W5 m ρ c (Proc.devRef .tc main_v65) = shapeCast S1x1 (m ((c : Thread nD τ).loc main_arg7)) shapeCasts_S1_S1x1 := by
  show StableHlo.after hostOps2 (W4 m ρ c) (Proc.devRef .tc main_v65) = _
  after_results_simp
  rw [W4_of_ne m ρ c main_arg7 (by decide), W3_arg7]
  try rfl

/-- The result array after the run, in the program's own operations. -/
theorem W6_v66 (c : Dev nD) : W6 m ρ c (Proc.devRef .tc main_v66)
    = dense (hidden2 m c) (m ((c : Thread nD τ).loc main_arg6)) (shapeCast S1x1 (m ((c : Thread nD τ).loc main_arg7)) shapeCasts_S1_S1x1) := by
  refine (W6_arr m ρ c 3).trans ((final2 (V5 m ρ) c).trans ?_)
  show dense (W5 m ρ c (Proc.devRef .tc main_v64)) (W5 m ρ c (Proc.devRef .tc main_arg6)) (W5 m ρ c (Proc.devRef .tc main_v65)) = _
  rw [W5_v64, W5_arg6, W5_v65]

/-! ## The result as the specification's network -/

/-- A vector recast as a one-row matrix reads, at `(0, q)`, its entry `q`. -/
theorem shapeCast_row_apply {D : ℕ} {α : Type} (b : (⟨1, ![D]⟩ : Shape).Idx → α) (h : (⟨1, ![D]⟩ : Shape).ShapeCasts ⟨2, ![1, D]⟩)
    (q : Fin D) : shapeCast ⟨2, ![1, D]⟩ b h (ix2 (0 : Fin 1) q) = b (ix1 q) :=
  shapeCast_apply b h _ _ (by
    rw [Shape.rowMajor_val_two, Shape.rowMajor_val_one]
    show q.val = 0 * D + q.val
    omega)

/-- A dense layer clipped at zero, on an aggregate, with the bias given as a recast vector, is the specification's
    layer that aggregates first. -/
theorem denseRelu_aggOp {C D : ℕ} (a : AW C) (ei : IVec SE 32) (y : FVec Ideal ⟨2, ![Nn, C]⟩ .f32) (W : Arr C D)
    (b : Vc D) (h : (⟨1, ![D]⟩ : Shape).ShapeCasts ⟨2, ![1, D]⟩) :
    denseRelu (aggOp gw a ei y) W (shapeCast ⟨2, ![1, D]⟩ b h) = aggThenDot (graphOf gw ei) y W b := by
  rw [aggOp_eq]
  funext j
  have hb : shapeCast ⟨2, ![1, D]⟩ b h (ix2 (0 : Fin 1) (j 1)) = b (ix1 (j 1)) := shapeCast_row_apply b h (j 1)
  show max (rowsByCols (agg (graphOf gw ei) y) W j + shapeCast ⟨2, ![1, D]⟩ b h (ix2 (0 : Fin 1) (j 1))) 0
    = max (rowsByCols (agg (graphOf gw ei) y) W j + b (ix1 (j 1))) 0
  rw [hb]

theorem dense_head {N D K : ℕ} (hh : Arr N D) (W : Arr D K) (b : Vc K) (h : (⟨1, ![K]⟩ : Shape).ShapeCasts ⟨2, ![1, K]⟩) :
    dense hh W (shapeCast ⟨2, ![1, K]⟩ b h) = head hh W b := by
  funext j
  have hb : shapeCast ⟨2, ![1, K]⟩ b h (ix2 (0 : Fin 1) (j 1)) = b (ix1 (j 1)) := shapeCast_row_apply b h (j 1)
  show rowsByCols hh W j + shapeCast ⟨2, ![1, K]⟩ b h (ix2 (0 : Fin 1) (j 1)) = rowsByCols hh W j + b (ix1 (j 1))
  rw [hb]

/-- THE KERNEL PROGRAM'S RESULT: the network with each layer aggregating first, over the graph the edge list defines. -/
theorem result_eq (c : Dev nD) : W6 m ρ c (Proc.devRef .tc main_v66)
    = netAggFirst (graphOf gw (argE m c)) (argX m c) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  rw [W6_v66]
  unfold hidden2 hidden1 netAggFirst
  rw [dense_head, denseRelu_aggOp, denseRelu_aggOp]

/-! ## The run -/

-- the launch theorem's implicit arguments are found by unifying its conclusion with this one, which takes unfolding
-- plain definitions in a metavariable's type
set_option backward.isDefEq.respectTransparency.types false in
/-- Every weakly fair execution of @main terminates, nothing faulting; the result buffer ends at the last boundary's
    contents and the arguments as launched: the launch over @main's six segments, the last thread state read against
    the final state, the result at its own buffer and each argument walked back to the launch memory. -/
theorem run : θ_run defs (onTc (τ := τ) (main (F := Ideal))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.RefValue.lean ====
/-
  The reference program's result, read as one function of its arguments.

  The reference computes each graph-convolution layer in the textbook order: multiply the node features by the weight
  matrix, aggregate the product over the graph (gather the source rows, scale by the edge weights, add into the
  destination rows, add the self-loop term), add the bias row and clip at zero; then the linear head. Its index columns,
  degrees and weights are the same operations on the same edge list as the kernel program's, so they define the same
  graph, and the result is `netDotFirst` — each layer multiplying first — over that graph.
-/
import proofs.«155499_j19774029431469_1_alg».proof.Proof.Gen.ReferenceIdeal.Read
import proofs.«155499_j19774029431469_1_alg».proof.Proof.GcnOps
import proofs.«155499_j19774029431469_1_alg».proof.Proof.LibPlainDot
import proofs.«155499_j19774029431469_1_alg».proof.Proof.LibBcastChain

set_option maxRecDepth 16384

noncomputable section

namespace Cert.ReferenceIdeal.RefValue

open Cert.ReferenceIdeal Cert.ReferenceIdeal.Read Idealize.ShloMosaic Idealize.ShloMosaic.ValueIdx Cert.Gcn
open Cert.Lib.PlainDot Cert.Lib.BcastChain Cert.ReferenceIdeal.Facts₀

/-- The shape side conditions of the graph operations and of the two aggregations, from the program's stated facts. -/
theorem gw : GW := ⟨slices_S2x5000000_S1x5000000_0_0, slices_S2x5000000_S1x5000000_1_0, shapeCasts_S1x5000000_S5000000,
  bcast_S_S5000000, bcast_S_S500000, bcast_S5000000_S5000000x1_0, scatter_S500000_S5000000x1_S5000000_n_0_0_1_wf,
  gather_S500000_S5000000x1_S5000000_n_0_n_n_0_1_1_wf⟩
theorem aw16 : AW 16 := ⟨gather_S500000x16_S5000000x1_S5000000x16_1_0_n_n_0_1_116_wf, scatter_S500000x16_S5000000x1_S5000000x16_1_0_0_1_wf,
  bcast_S5000000x1_S5000000x16_0_1, bcast_S_S500000x16, bcast_S500000_S500000x1_0, bcast_S500000x1_S500000x16_0_1⟩
theorem aw8 : AW 8 := ⟨gather_S500000x8_S5000000x1_S5000000x8_1_0_n_n_0_1_18_wf, scatter_S500000x8_S5000000x1_S5000000x8_1_0_0_1_wf,
  bcast_S5000000x1_S5000000x8_0_1, bcast_S_S500000x8, bcast_S500000_S500000x1_0, bcast_S500000x1_S500000x8_0_1⟩

/-- One reference layer — multiply, aggregate, add the bias row, clip at zero — is the specification's layer that
    multiplies first. -/
theorem layer_eq {C D : ℕ} (w : GW) (a : AW D) (ei : IVec SE 32) (y : FVec Ideal ⟨2, ![Nn, C]⟩ .f32) (W : FVec Ideal ⟨2, ![C, D]⟩ .f32)
    (b : FVec Ideal ⟨1, ![D]⟩ .f32) (d : DotDims ⟨2, ![Nn, C]⟩ ⟨2, ![C, D]⟩ ⟨2, ![Nn, D]⟩) (hd : d = DotDims.plain Nn C D)
    (h3 : (⟨1, ![D]⟩ : Shape).BroadcastsInDim ⟨2, ![1, D]⟩ ![1])
    (h4 : (⟨2, ![1, D]⟩ : Shape).BroadcastsInDim ⟨2, ![Nn, D]⟩ ![0, 1])
    (hz : S0.BroadcastsInDim ⟨2, ![Nn, D]⟩ (![] : Fin 0 → Fin (⟨2, ![Nn, D]⟩ : Shape).rank)) :
    maximumf (addf (aggOp w a ei (Host.dotGeneral d none y W))
        (broadcastInDim ⟨2, ![Nn, D]⟩ ![0, 1] h4 (broadcastInDim ⟨2, ![1, D]⟩ ![1] h3 b)))
      (broadcastInDim ⟨2, ![Nn, D]⟩ ![] hz (constant (F := Ideal) S0 .f32 0x00000000#32))
      = dotThenAgg (graphOf w ei) y W b := by
  funext j
  obtain ⟨p, q, rfl⟩ : ∃ (p : Fin Nn) (q : Fin D), j = ix2 p q := ⟨j 0, j 1, eq_ix2 j⟩
  have hdot : Host.dotGeneral d none y W = rowsByCols y W := dotGeneral_eq d hd none _ y W
  have h0 : (broadcastInDim ⟨2, ![Nn, D]⟩ ![] hz (constant (F := Ideal) S0 .f32 0x00000000#32)) (ix2 p q) = (0 : EReal) := by
    rw [overAll_apply]; exact Ideal.ofBits_zero_f32
  rw [maximumf_apply, addf_apply, overRows_apply, h0, aggOp_eq, hdot]
  rfl

/-- The reference's head — multiply, add the bias row — is the specification's. -/
theorem head_eq {D K : ℕ} (hh : FVec Ideal ⟨2, ![Nn, D]⟩ .f32) (W : FVec Ideal ⟨2, ![D, K]⟩ .f32) (b : FVec Ideal ⟨1, ![K]⟩ .f32)
    (d : DotDims ⟨2, ![Nn, D]⟩ ⟨2, ![D, K]⟩ ⟨2, ![Nn, K]⟩) (hd : d = DotDims.plain Nn D K)
    (h3 : (⟨1, ![K]⟩ : Shape).BroadcastsInDim ⟨2, ![1, K]⟩ ![1])
    (h4 : (⟨2, ![1, K]⟩ : Shape).BroadcastsInDim ⟨2, ![Nn, K]⟩ ![0, 1]) :
    addf (Host.dotGeneral d none hh W) (broadcastInDim ⟨2, ![Nn, K]⟩ ![0, 1] h4 (broadcastInDim ⟨2, ![1, K]⟩ ![1] h3 b))
      = head hh W b := by
  funext j
  obtain ⟨p, q, rfl⟩ : ∃ (p : Fin Nn) (q : Fin K), j = ix2 p q := ⟨j 0, j 1, eq_ix2 j⟩
  have hdot : Host.dotGeneral d none hh W = rowsByCols hh W := dotGeneral_eq d hd none _ hh W
  rw [addf_apply, overRows_apply, hdot]
  rfl

section
variable (x0 : FVec Ideal S500000x10 .f32) (x1 : IVec S2x5000000 32) (x2 : FVec Ideal S10x16 .f32) (x3 : FVec Ideal S16 .f32)
  (x4 : FVec Ideal S16x8 .f32) (x5 : FVec Ideal S8 .f32) (x6 : FVec Ideal S8x1 .f32) (x7 : FVec Ideal S1 .f32)

/-- The first layer. -/
theorem hidden1_eq : val_main_v48 (F := Ideal) x0 x1 x2 x3 = dotThenAgg (graphOf gw x1) x0 x2 x3 :=
  layer_eq gw aw16 x1 x0 x2 x3 dot_S500000x10_S10x16_S500000x16_1_0_0_1_n_n rfl bcast_S16_S1x16_1 bcast_S1x16_S500000x16_0_1 bcast_S_S500000x16

/-- The second layer, on the first layer's output. -/
theorem hidden2_eq : val_main_v93 (F := Ideal) x0 x1 x2 x3 x4 x5
    = dotThenAgg (graphOf gw x1) (val_main_v48 (F := Ideal) x0 x1 x2 x3) x4 x5 :=
  layer_eq gw aw8 x1 (val_main_v48 (F := Ideal) x0 x1 x2 x3) x4 x5 dot_S500000x16_S16x8_S500000x8_1_0_0_1_n_n rfl bcast_S8_S1x8_1
    bcast_S1x8_S500000x8_0_1 bcast_S_S500000x8

/-- THE REFERENCE'S RESULT: the network with each layer multiplying first, over the graph the edge list defines. -/
theorem result_eq : val_main_v97 (F := Ideal) x0 x1 x2 x3 x4 x5 x6 x7 = netDotFirst (graphOf gw x1) x0 x2 x3 x4 x5 x6 x7 := by
  have e : val_main_v97 (F := Ideal) x0 x1 x2 x3 x4 x5 x6 x7 = head (val_main_v93 (F := Ideal) x0 x1 x2 x3 x4 x5) x6 x7 :=
    head_eq (val_main_v93 (F := Ideal) x0 x1 x2 x3 x4 x5) x6 x7 dot_S500000x8_S8x1_S500000x1_1_0_0_1_n_n rfl bcast_S1_S1x1_1
      bcast_S1x1_S500000x1_0_1
  rw [e, hidden2_eq, hidden1_eq]
  rfl

end

end Cert.ReferenceIdeal.RefValue

end
-- ==== Proof.Finite.lean ====
/-
  What the precondition says: every entry of the float inputs the law needs is a real number.

  The precondition is a conjunction, one conjunct per float input, of "`|a| < +∞` at every entry", each written as a
  reduction by `and` of the entrywise comparison. On the extended reals `|a| = max a (−a)`, so `|a| < +∞` excludes both
  infinities and leaves a real number. The distributive law that joins the two programs needs exactly this of the
  node features `x`, the two weight matrices `W1`, `W2` and the first bias `b1` (which enters the second layer's input).
-/
import proofs.«155499_j19774029431469_1_alg».proof.Pre_finite_inputs
import proofs.«155499_j19774029431469_1_alg».proof.Proof.LibAggLinear
import Idealize.ShloMosaic.Lib.ReduceAll
import Idealize.ShloMosaic.Lib.ValueIdx
import Idealize.ShloMosaic.PureOps.Ideal.Laws

set_option maxRecDepth 16384

noncomputable section

namespace Cert.Finite

open Idealize.ShloMosaic Idealize.ShloMosaic.ValueIdx Cert.Lib.AggLinear

instance : Subsingleton (⟨0, ![]⟩ : Shape).Idx := ⟨fun a b => funext fun d => d.elim0⟩

/-- The pattern of `+∞`. -/
theorem ofBits_inf_f32 : Ideal.ofBits .f32 0x7F800000#32 = ⊤ := by
  simp [Ideal.ofBits, Ideal.ieee]

/-- An extended real whose absolute value is below `+∞` is a real number. -/
theorem real_of_abs_lt_top (x : EReal) (h : max x (-x) < ⊤) : IsReal x := by
  induction x using EReal.rec with
  | bot => exact absurd h (by simp)
  | top => exact absurd h (by simp)
  | coe r => exact ⟨r, rfl⟩

/-- `jnp.all(|a| < +∞)` came out true: every entry of `a` is real. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf a) (broadcastInDim s ![] hb (constant ⟨0, ![]⟩ .f32 0x7F800000#32)))
      (constantI ⟨0, ![]⟩ 1 1#1) hr hu ix0 = 1#1) (i : s.Idx) : IsReal (a i) := by
  have hi := Host.reduce_andi_all _ _ hr hu ix0 h i
  have hlt : Ideal.cmp .olt (max (a i) (-(a i))) (Ideal.ofBits .f32 0x7F800000#32) = 1#1 := hi
  rw [ofBits_inf_f32] at hlt
  refine real_of_abs_lt_top _ ?_
  unfold Ideal.cmp at hlt
  by_contra hn
  simp [hn] at hlt

variable [Cert.Pre_finite_inputs.Facts]

/-- Under the precondition the node features, both weight matrices and the first bias are real. -/
theorem pre_real (a0 : FVec Ideal Cert.Pre_finite_inputs.S500000x10 .f32) (a1 : IVec Cert.Pre_finite_inputs.S2x5000000 32)
    (a2 : FVec Ideal Cert.Pre_finite_inputs.S10x16 .f32) (a3 : FVec Ideal Cert.Pre_finite_inputs.S16 .f32)
    (a4 : FVec Ideal Cert.Pre_finite_inputs.S16x8 .f32) (a5 : FVec Ideal Cert.Pre_finite_inputs.S8 .f32)
    (a6 : FVec Ideal Cert.Pre_finite_inputs.S8x1 .f32) (a7 : FVec Ideal Cert.Pre_finite_inputs.S1 .f32)
    (hpre : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) := by
  have h := congrFun hpre ix0
  unfold Cert.Pre_finite_inputs.fn Cert.Pre_finite_inputs.fn_part1 at h
  dsimp only at h
  have s7 := IntOp.andi_eq_one.1 (show IntOp.andi _ _ = 1#1 from h)
  have s6 := IntOp.andi_eq_one.1 (show IntOp.andi _ _ = 1#1 from s7.1)
  have s5 := IntOp.andi_eq_one.1 (show IntOp.andi _ _ = 1#1 from s6.1)
  have s4 := IntOp.andi_eq_one.1 (show IntOp.andi _ _ = 1#1 from s5.1)
  have s3 := IntOp.andi_eq_one.1 (show IntOp.andi _ _ = 1#1 from s4.1)
  have s2 := IntOp.andi_eq_one.1 (show IntOp.andi _ _ = 1#1 from s3.1)
  exact ⟨all_real a0 _ _ _ s2.1, all_real a2 _ _ _ s2.2, all_real a3 _ _ _ s3.2, all_real a4 _ _ _ s4.2⟩

end Cert.Finite

end
-- ==== Proof.lean ====
/-
  A two-layer graph convolution with a linear head on 500000 nodes and 5000000 edges: the kernel program against its
  jnp reference, on the extended reals.

  Both programs build, from the edge list, the same normalised adjacency with self loops: `deg[p] = 1 + #{edges into p}`,
  `dinv = deg^(−1/2)`, edge weight `dinv[src] · dinv[dst]`, self-loop weight `dinv[p]²`. Write `M` for the aggregation
  `(M y)[p, ·] = ∑_{edges r into p} y[src r, ·] · weight r + y[p, ·] · dinv[p]²`. The reference computes each layer as
  `relu (M (y · W) + b)`; the kernel program aggregates on the host and runs the dense part as a row-tiled kernel,
  `relu ((M y) · W + b)`; the head `h · Wd + bd` is the same on both sides.

  `M` mixes rows and `W` mixes columns, so `(M y) · W = M (y · W)` — by distributivity and an exchange of two finite sums.
  Distributivity fails at the infinities, so this is where the precondition is used: every entry of `x`, `W1`, `b1`, `W2`
  is a real number; the degree is a count plus one, so `dinv` and all weights are real; and a layer's output on real data
  is real, which carries the argument through the second layer.

  The kernel side reads the generated frame run: each region's output array is the dense layer of the whole array it was
  entered with (fifty row blocks tiling the rows), and the host stretches between the regions are the aggregation. The
  reference side reads the generated run one stage at a time. The ideal pass rewrote nothing, so `preserves` is `True`.
-/
import proofs.«155499_j19774029431469_1_alg».proof.Defs
import proofs.«155499_j19774029431469_1_alg».proof.Proof.Gen.Kernel
import proofs.«155499_j19774029431469_1_alg».proof.Proof.Gen.Kernel.Skeleton
import proofs.«155499_j19774029431469_1_alg».proof.Proof.Gen.Kernel.Launch
import proofs.«155499_j19774029431469_1_alg».proof.Proof.Gen.Kernel.Points
import proofs.«155499_j19774029431469_1_alg».proof.Proof.Gen.Kernel.Frame
import proofs.«155499_j19774029431469_1_alg».proof.Proof.Gen.KernelIdeal
import proofs.«155499_j19774029431469_1_alg».proof.Proof.Gen.KernelIdeal.Skeleton
import proofs.«155499_j19774029431469_1_alg».proof.Proof.Gen.KernelIdeal.Launch
import proofs.«155499_j19774029431469_1_alg».proof.Proof.Gen.KernelIdeal.Points
import proofs.«155499_j19774029431469_1_alg».proof.Proof.Gen.KernelIdeal.Frame
import proofs.«155499_j19774029431469_1_alg».proof.Proof.Gen.ReferenceIdeal
import proofs.«155499_j19774029431469_1_alg».proof.Proof.Gen.ReferenceIdeal.Run
import proofs.«155499_j19774029431469_1_alg».proof.Proof.Gen.ReferenceIdeal.Read
import proofs.«155499_j19774029431469_1_alg».proof.Proof.Gen.Pre_finite_inputs
import proofs.«155499_j19774029431469_1_alg».proof.Proof.GcnSpec
import proofs.«155499_j19774029431469_1_alg».proof.Proof.GcnOps
import proofs.«155499_j19774029431469_1_alg».proof.Proof.KernelRun
import proofs.«155499_j19774029431469_1_alg».proof.Proof.RefValue
import proofs.«155499_j19774029431469_1_alg».proof.Proof.Finite
import Idealize.ShloMosaic.Adequacy
import Idealize.ShloMosaic.Init

noncomputable section

namespace Cert.Proof

open Idealize.ShloMosaic Idealize.SL.Sem Cert.Kernel

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel program ends at the network with each layer aggregating first and the reference
    at the network with each layer multiplying first, over the same graph and the same arguments; under the
    precondition the two are one function. -/
theorem algebraic : Cert.algebraic_KernelIdeal_ReferenceIdeal := by
  intro m ρ m' ρ' hpre hagree
  refine ⟨fun c => Cert.KernelIdeal.Gen.W6 m ρ c (Proc.devRef .tc Cert.KernelIdeal.main_v66),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v97_eq, e0, e1, e2, e3, e4, e5, e6, e7,
    Cert.ReferenceIdeal.RefValue.result_eq]
  refine Eq.trans ?_ (Cert.KernelIdeal.RunValue.result_eq m ρ c).symm
  obtain ⟨hx, hW1, hb1, hW2⟩ := Cert.Finite.pre_real _ _ _ _ _ _ _ _ (hpre c)
  exact (Cert.Gcn.net_eq _ (Cert.Gcn.graphOf_real _ _) _ _ _ _ _ _ _ hx hW1 hb1 hW2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
